-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S4096x4096 : Shape := ⟨2, ![4096, 4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S16384x4096 .f32) (main_arg1 : FVec F S4096x4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S16384x4096 : Shape := ⟨2, ![16384, 4096]⟩
abbrev S4096x4096 : Shape := ⟨2, ![4096, 4096]⟩
abbrev S1024x512 : Shape := ⟨2, ![1024, 512]⟩
abbrev S1024x1024 : Shape := ⟨2, ![1024, 1024]⟩

abbrev nBuf : Space → Nat
  | .hbm => 3
  | .vmem => 9
  | .smem => 0
  | _ => 0

abbrev bufTy : (tb : Table) → Fin (tcTables nBuf tb) → BufTy
  | .hbm, ⟨0, _⟩ => ⟨S16384x4096, .f32⟩
  | .hbm, ⟨1, _⟩ => ⟨S4096x4096, .f32⟩
  | .hbm, ⟨2, _⟩ => ⟨S16384x4096, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 4, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x4096.size a
  hwx0_0 : ∀ i : grid0.Coords, EltTy.bits .f32 = 32 ∨ (Rect.block (s := S16384x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .f32 = 32 ∨ (Rect.block (s := S4096x4096) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S16384x4096.size a
  hwx0_2 : ∀ i : grid0.Coords, EltTy.bits .f32 = 32 ∨ (Rect.block (s := S16384x4096) S1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S16384x4096.size a
  hwx0_3 : ∀ i : grid0.Coords, EltTy.bits .f32 = 32 ∨ (Rect.block (s := S16384x4096) S1024x1024.size (cc0_transform_3 i) (hinb0_3 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16384x4096 : Shape := ⟨2, ![16384, 4096]⟩
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x4096, .f32⟩
  | .hbm, ⟨2, _⟩ => ⟨S4096x4096, .f32⟩
  | .hbm, ⟨3, _⟩ => ⟨S16384x4096, .f32⟩
  | .hbm, ⟨4, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  transposes_S4096x4096_S4096x4096_1_0 : S4096x4096.Transposes [1, 0] S4096x4096
  dot_S16384x4096_S4096x4096_S16384x4096_1_0_0_1_n_n_wf : DotDims.WF S16384x4096 S4096x4096 S16384x4096 [1] [0] [0] [1] [] []

variable [Facts₀]

def dot_S16384x4096_S4096x4096_S16384x4096_1_0_0_1_n_n : DotDims S16384x4096 S4096x4096 S16384x4096 where
  lhsContracting := [1]
  rhsContracting := [0]
  lhsNonContracting := [0]
  rhsNonContracting := [1]
  lhsBatch := []
  rhsBatch := []
  wf := dot_S16384x4096_S4096x4096_S16384x4096_1_0_0_1_n_n_wf

class Facts : Prop extends Facts₀ where

variable [Facts]
-- ==== Proof.FrameSetupB.lean ====
/-
  What the three runs of the kernel body and the launch share.

  The grid is 16 × 4 × 8, the last axis the reduction over K-blocks: point t has K-block t mod 8.  The body zeroes
  the accumulator when the K-block is 0, adds one block product at every point, and stores residual + accumulator
  into the output block when the K-block is 7.  So the output window is touched only at the points ≡ 7 (mod 8),
  which are exactly the points where its block is written back; the residual window is fetched at the points
  ≡ 0 (mod 8) and keeps its block through the seven points that follow.
-/
import proofs.«145392_j68444598829476_1_alg».proof.Proof.Gen.Kernel.Launch
import proofs.«145392_j68444598829476_1_alg».proof.Proof.Gen.Kernel.Skeleton
import proofs.«145392_j68444598829476_1_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them, and the windows' blocks -/

/-- No host operation precedes the region: a buffer holds its launch contents when the region is entered. -/
abbrev V (c : Dev nD) (b : Ref sig .tc) : Buf (Elt F) ((c : Thread nD τ).loc b) := m ((c : Thread nD τ).loc b)

/-- Window `w`'s block at point `t`, read off its array's entry contents. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or not: between two fetches the
    block index does not move and the body leaves the buffer as it found it. Stated for any proof data whose entry
    array is the region's (`hA`) and whose body leaves the block in place (`hafter`); once per input window. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions, decided over the grid -/

/-- "The K-block is the first": the condition under which the accumulator is zeroed. -/
abbrev isFirst (i : grid0.Coords) : Prop :=
  (Scalar.cmpi .ne (Scalar.extui (Scalar.cmpi .eq (BitVec.ofNat 32 (i 2).val) 0#32)) 0#32) = 1#1
theorem isFirst_iff : ∀ t : Fin cfg0.N, isFirst (grid0.coords t) ↔ t.val % 8 = 0 :=
  (by decide +kernel : ∀ t : Fin grid0.N, isFirst (grid0.coords t) ↔ t.val % 8 = 0)

/-- "The K-block is the last": the condition under which the output block is stored. -/
abbrev isLast (i : grid0.Coords) : Prop := k0_cond2 i = 1#1
theorem isLast_iff : ∀ t : Fin cfg0.N, isLast (grid0.coords t) ↔ t.val % 8 = 7 :=
  (by decide +kernel : ∀ t : Fin grid0.N, isLast (grid0.coords t) ↔ t.val % 8 = 7)

/-! ## Where the output window is idle, and where it is written back -/

theorem live_in0 : ∀ i, cfg0.idle 0 i = false := fun _ => rfl
theorem live_in1 : ∀ i, cfg0.idle 1 i = false := fun _ => rfl
theorem live_in2 : ∀ i, cfg0.idle 2 i = false := fun _ => rfl
/-- Off the last K-block the body stores nothing into the output window, -/
theorem idle_out : ∀ t : Fin cfg0.N, ¬isLast (grid0.coords t) → cfg0.idle 3 (grid0.coords t) = true := by decide +kernel
/-- and the pipeline does not write its block back there. -/
theorem noFlush_out : ∀ t : Fin cfg0.N, ¬isLast (grid0.coords t) → (cfg0.win 3).flush t = false := by decide +kernel
/-- On the last K-block the window is live. -/
theorem live_out : ∀ t : Fin cfg0.N, isLast (grid0.coords t) → cfg0.idle 3 (grid0.coords t) = false := by decide +kernel

/-! ## The memrefs the body is called with -/

abbrev ms0 (t : Fin cfg0.N) : Memref sig .tc .vmem S1024x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x1024 .f32 := win0_3.stage (cfg0.slots t 3)
abbrev hs3 (t : Fin cfg0.N) : (ms3 t).IsWhole := hstage0_3 ((cfg0.slots t 3).cast nbuf0_3)
/-- The accumulator: a whole scoped buffer of the kernel's own. -/
abbrev accM : Memref sig .tc .vmem S1024x1024 .f32 := Memref.whole cc0_scratch0
/-- The views through which the accumulator's and the output block's contents are stated. -/
abbrev accV : View sig .tc .vmem S1024x1024 .f32 := accM.view
abbrev outV : View sig .tc .vmem S1024x1024 .f32 := (Memref.whole cc0_stg3_0 : Memref sig .tc .vmem S1024x1024 .f32).view

/-- The scoped buffers that are no staging buffer are the accumulator alone. -/
theorem scopedRest_acc (c : Dev nD) :
    (Pipeline.scopedRest (Ix := Unit) (Name := ℕ) (U := UR sig nD τ) (Lvl := ℕ) (Val := Elt F) spec0 c : sProp 𝕄)
      = iprop(∃ d, owns (c : Thread nD τ) accM fullShare d) := by
  rw [scopedRest0_eq]; simp only [accM, owns_whole]; try rfl

end Cert.Kernel.Hand

end
-- ==== Proof.BodyFirstB.lean ====
/-
  The body at a point whose K-block is the first (and not the last): the accumulator is zeroed, then the block
  product is added to it; the output block is not touched.
-/
import proofs.«145392_j68444598829476_1_alg».proof.Proof.FrameSetupB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole memrefs — the three input blocks at their contents, the output buffer at any contents, the
    accumulator at anything — the body runs and hands back the inputs and the output buffer as they were and the
    accumulator with the pieces its two stores wrote (the list the run finds, last store first). -/
noncomputable def runFirst (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (hc0 : isFirst i) (hc1 : ¬isLast i)
    (x0 : Vec F S1024x512 .f32) (x1 : Vec F S1024x512 .f32) (x2 : Vec F S1024x1024 .f32) :
    { LS : List (View.Piece (Elt F) S1024x1024 .f32) //
      ∀ (y : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare y ∗ (∃ d, owns (c : Thread nD τ) arg7 fullShare d)
            ∗ (iprop(owns (c : Thread nD τ) arg3 fullShare x0 ∗ owns (c : Thread nD τ) arg4 fullShare x1 ∗ owns (c : Thread nD τ) arg5 fullShare x2
                ∗ owns (c : Thread nD τ) arg6 fullShare y
                ∗ (∃ f, arg7.view.loc (c : Thread nD τ) ↦[arg7.view.set]{fullShare} arg7.view.writes (Elt F) f LS)) -∗ K ⟨⟩))
          ⊢ wp frame (wpE (defs₀ (F := F)) Variants.none c none) E (cc0__kernel i arg3 harg3 arg4 harg4 arg5 harg5 arg6 harg6 arg7 harg7) K } := by
  refine ⟨?_, fun y E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%d7, %f7, -, HS⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.Kernel.Hand

end
-- ==== Proof.BodyMidB.lean ====
/-
  The body at a point whose K-block is neither the first nor the last: the block product is added to the
  accumulator the point before left; the output block is not touched.
-/
import proofs.«145392_j68444598829476_1_alg».proof.Proof.FrameSetupB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole memrefs — the three input blocks at their contents, the output buffer at any contents, the
    accumulator at the contents `acc` the point before left — the body runs and hands back the inputs and the output
    buffer as they were and the accumulator with the piece its store wrote. -/
noncomputable def runMid (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (hc0 : ¬isFirst i) (hc1 : ¬isLast i)
    (x0 : Vec F S1024x512 .f32) (x1 : Vec F S1024x512 .f32) (x2 : Vec F S1024x1024 .f32) (acc : Vec F S1024x1024 .f32) :
    { LS : List (View.Piece (Elt F) S1024x1024 .f32) //
      ∀ (y : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare y ∗ owns (c : Thread nD τ) arg7 fullShare acc
            ∗ (iprop(owns (c : Thread nD τ) arg3 fullShare x0 ∗ owns (c : Thread nD τ) arg4 fullShare x1 ∗ owns (c : Thread nD τ) arg5 fullShare x2
                ∗ owns (c : Thread nD τ) arg6 fullShare y
                ∗ (∃ f, arg7.view.loc (c : Thread nD τ) ↦[arg7.view.set]{fullShare} arg7.view.writes (Elt F) f LS)) -∗ K ⟨⟩))
          ⊢ wp frame (wpE (defs₀ (F := F)) Variants.none c none) E (cc0__kernel i arg3 harg3 arg4 harg4 arg5 harg5 arg6 harg6 arg7 harg7) K } := by
  refine ⟨?_, fun y E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f7, %hf7, HS⟩, Hk⟩
    obtain rfl := harg3.eq_unread hf0; obtain rfl := harg4.eq_unread hf1; obtain rfl := harg5.eq_unread hf2; obtain rfl := harg6.eq_unread hf3
    obtain rfl := harg7.eq_unread hf7
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.Kernel.Hand

end
-- ==== Proof.BodyLastB.lean ====
/-
  The body at a point whose K-block is the last (and not the first): the block product is added to the accumulator
  the point before left, and residual + accumulator is stored into the output block.
-/
import proofs.«145392_j68444598829476_1_alg».proof.Proof.FrameSetupB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole memrefs — the three input blocks at their contents, the output buffer at anything, the accumulator at
    the contents `acc` the point before left — the body runs and hands back the inputs as they were, the output
    buffer with the piece its store wrote and the accumulator with the piece its store wrote. -/
noncomputable def runLast (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (hc0 : ¬isFirst i) (hc1 : isLast i)
    (x0 : Vec F S1024x512 .f32) (x1 : Vec F S1024x512 .f32) (x2 : Vec F S1024x1024 .f32) (acc : Vec F S1024x1024 .f32) :
    Σ' (LO : List (View.Piece (Elt F) S1024x1024 .f32)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ owns (c : Thread nD τ) arg7 fullShare acc
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f LO)
                ∗ (∃ f, arg7.view.loc (c : Thread nD τ) ↦[arg7.view.set]{fullShare} arg7.view.writes (Elt F) f LS)) -∗ K ⟨⟩))
          ⊢ wp frame (wpE (defs₀ (F := F)) Variants.none c none) E (cc0__kernel i arg3 harg3 arg4 harg4 arg5 harg5 arg6 harg6 arg7 harg7) K } := by
  refine ⟨?_, ?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%d3, %f3, -, H3⟩, ⟨%f7, %hf7, HS⟩, Hk⟩
    obtain rfl := harg3.eq_unread hf0; obtain rfl := harg4.eq_unread hf1; obtain rfl := harg5.eq_unread hf2
    obtain rfl := harg7.eq_unread hf7
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.Kernel.Hand

end
-- ==== Proof.FrameB.lean ====
/-
  The frame of the kernel's program: every weakly fair execution terminates without a fault, and each array ends
  at what the write-backs leave in it — the two operands untouched.

  What the accumulator holds after each point is defined by recursion on the point: zeroed and one product added
  when the K-block is the first, one product added to what the point before left otherwise.  The region's invariant
  holds the accumulator at exactly that; the output block is stored at the points of the last K-block, from the
  residual block and the accumulator, and the pipeline writes it back at those points.
-/
import proofs.«145392_j68444598829476_1_alg».proof.Proof.BodyFirstB
import proofs.«145392_j68444598829476_1_alg».proof.Proof.BodyMidB
import proofs.«145392_j68444598829476_1_alg».proof.Proof.BodyLastB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case's stores leave -/

/-- The first case's two stores each cover the accumulator. -/
theorem cover_first (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (hc0 : isFirst i) (hc1 : ¬isLast i)
    (x0 : Vec F S1024x512 .f32) (x1 : Vec F S1024x512 .f32) (x2 : Vec F S1024x1024 .f32) (j : S1024x1024.Idx) :
    ∃ pc ∈ (runFirst c i arg3 harg3 arg4 harg4 arg5 harg5 arg6 harg6 arg7 harg7 hc0 hc1 x0 x1 x2).1, j ∈ pc.1.set :=
  View.cover_of_tiledL (runFirst c i arg3 harg3 arg4 harg4 arg5 harg5 arg6 harg6 arg7 harg7 hc0 hc1 x0 x1 x2).1 S1024x1024.size (by sl_kernel_rfl) j

/-- The accumulator after a point of the first K-block. -/
def accFirst (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (hc0 : isFirst i) (hc1 : ¬isLast i)
    (x0 : Vec F S1024x512 .f32) (x1 : Vec F S1024x512 .f32) (x2 : Vec F S1024x1024 .f32) : Vec F S1024x1024 .f32 :=
  accV.read (Elt F) (accV.writes (Elt F) accV.junk (runFirst c i arg3 harg3 arg4 harg4 arg5 harg5 arg6 harg6 arg7 harg7 hc0 hc1 x0 x1 x2).1)

theorem cover_mid (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (hc0 : ¬isFirst i) (hc1 : ¬isLast i)
    (x0 : Vec F S1024x512 .f32) (x1 : Vec F S1024x512 .f32) (x2 : Vec F S1024x1024 .f32) (acc : Vec F S1024x1024 .f32) (j : S1024x1024.Idx) :
    ∃ pc ∈ (runMid c i arg3 harg3 arg4 harg4 arg5 harg5 arg6 harg6 arg7 harg7 hc0 hc1 x0 x1 x2 acc).1, j ∈ pc.1.set :=
  View.cover_of_tiledL (runMid c i arg3 harg3 arg4 harg4 arg5 harg5 arg6 harg6 arg7 harg7 hc0 hc1 x0 x1 x2 acc).1 S1024x1024.size (by sl_kernel_rfl) j

/-- The accumulator after a point of a middle K-block, from what the point before left. -/
def accMid (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (hc0 : ¬isFirst i) (hc1 : ¬isLast i)
    (x0 : Vec F S1024x512 .f32) (x1 : Vec F S1024x512 .f32) (x2 : Vec F S1024x1024 .f32) (acc : Vec F S1024x1024 .f32) : Vec F S1024x1024 .f32 :=
  accV.read (Elt F) (accV.writes (Elt F) accV.junk (runMid c i arg3 harg3 arg4 harg4 arg5 harg5 arg6 harg6 arg7 harg7 hc0 hc1 x0 x1 x2 acc).1)

theorem cover_last_out (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (hc0 : ¬isFirst i) (hc1 : isLast i)
    (x0 : Vec F S1024x512 .f32) (x1 : Vec F S1024x512 .f32) (x2 : Vec F S1024x1024 .f32) (acc : Vec F S1024x1024 .f32) (j : S1024x1024.Idx) :
    ∃ pc ∈ (runLast c i arg3 harg3 arg4 harg4 arg5 harg5 arg6 harg6 arg7 harg7 hc0 hc1 x0 x1 x2 acc).1, j ∈ pc.1.set :=
  View.cover_of_tiledL (runLast c i arg3 harg3 arg4 harg4 arg5 harg5 arg6 harg6 arg7 harg7 hc0 hc1 x0 x1 x2 acc).1 S1024x1024.size (by sl_kernel_rfl) j

/-- The output block a point of the last K-block stores. -/
def outLast (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (hc0 : ¬isFirst i) (hc1 : isLast i)
    (x0 : Vec F S1024x512 .f32) (x1 : Vec F S1024x512 .f32) (x2 : Vec F S1024x1024 .f32) (acc : Vec F S1024x1024 .f32) : Vec F S1024x1024 .f32 :=
  outV.read (Elt F) (outV.writes (Elt F) outV.junk (runLast c i arg3 harg3 arg4 harg4 arg5 harg5 arg6 harg6 arg7 harg7 hc0 hc1 x0 x1 x2 acc).1)

theorem cover_last_acc (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (hc0 : ¬isFirst i) (hc1 : isLast i)
    (x0 : Vec F S1024x512 .f32) (x1 : Vec F S1024x512 .f32) (x2 : Vec F S1024x1024 .f32) (acc : Vec F S1024x1024 .f32) (j : S1024x1024.Idx) :
    ∃ pc ∈ (runLast c i arg3 harg3 arg4 harg4 arg5 harg5 arg6 harg6 arg7 harg7 hc0 hc1 x0 x1 x2 acc).2.1, j ∈ pc.1.set :=
  View.cover_of_tiledL (runLast c i arg3 harg3 arg4 harg4 arg5 harg5 arg6 harg6 arg7 harg7 hc0 hc1 x0 x1 x2 acc).2.1 S1024x1024.size (by sl_kernel_rfl) j

/-- The accumulator after a point of the last K-block. -/
def accLast (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (hc0 : ¬isFirst i) (hc1 : isLast i)
    (x0 : Vec F S1024x512 .f32) (x1 : Vec F S1024x512 .f32) (x2 : Vec F S1024x1024 .f32) (acc : Vec F S1024x1024 .f32) : Vec F S1024x1024 .f32 :=
  accV.read (Elt F) (accV.writes (Elt F) accV.junk (runLast c i arg3 harg3 arg4 harg4 arg5 harg5 arg6 harg6 arg7 harg7 hc0 hc1 x0 x1 x2 acc).2.1)

/-! ## The accumulator, point by point -/

/-- What the accumulator holds after the body at position `n`. -/
def accAt (c : Dev nD) : (n : ℕ) → n < cfg0.N → Vec F S1024x1024 .f32
  | 0, hn => accFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) accM (Memref.isWhole_whole _) ((isFirst_iff ⟨0, hn⟩).mpr (Nat.zero_mod _))
      (fun h => by have h' : 0 % 8 = 7 := (isLast_iff ⟨0, hn⟩).mp h; omega) (iblk m c 0 ⟨0, hn⟩) (iblk m c 1 ⟨0, hn⟩) (iblk m c 2 ⟨0, hn⟩)
  | n + 1, hn =>
    if h0 : (n + 1) % 8 = 0 then
      accFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) ((isFirst_iff ⟨n + 1, hn⟩).mpr h0)
        (fun h => by have h' : (n + 1) % 8 = 7 := (isLast_iff ⟨n + 1, hn⟩).mp h; omega) (iblk m c 0 ⟨n + 1, hn⟩) (iblk m c 1 ⟨n + 1, hn⟩) (iblk m c 2 ⟨n + 1, hn⟩)
    else if h1 : (n + 1) % 8 = 7 then
      accLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) (fun h => h0 ((isFirst_iff ⟨n + 1, hn⟩).mp h)) ((isLast_iff ⟨n + 1, hn⟩).mpr h1)
        (iblk m c 0 ⟨n + 1, hn⟩) (iblk m c 1 ⟨n + 1, hn⟩) (iblk m c 2 ⟨n + 1, hn⟩) (accAt c n (Nat.lt_of_succ_lt hn))
    else
      accMid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) (fun h => h0 ((isFirst_iff ⟨n + 1, hn⟩).mp h)) (fun h => h1 ((isLast_iff ⟨n + 1, hn⟩).mp h))
        (iblk m c 0 ⟨n + 1, hn⟩) (iblk m c 1 ⟨n + 1, hn⟩) (iblk m c 2 ⟨n + 1, hn⟩) (accAt c n (Nat.lt_of_succ_lt hn))

theorem accAt_first (c : Dev nD) (t : Fin cfg0.N) (h0 : t.val % 8 = 0) (h1 : ¬t.val % 8 = 7) :
    accAt m c t.val t.isLt = accFirst c (grid0.coords t) (ms0 t) (hs0 t) (ms1 t) (hs1 t) (ms2 t) (hs2 t) (ms3 t) (hs3 t) accM (Memref.isWhole_whole _) ((isFirst_iff t).mpr h0) (fun h => h1 ((isLast_iff t).mp h)) (iblk m c 0 t) (iblk m c 1 t) (iblk m c 2 t) := by
  obtain ⟨n, hn⟩ := t
  cases n with
  | zero => exact rfl
  | succ n => exact (dif_pos h0).trans rfl

theorem accAt_mid (c : Dev nD) (t : Fin cfg0.N) (h0 : ¬t.val % 8 = 0) (h1 : ¬t.val % 8 = 7) :
    accAt m c t.val t.isLt = accMid c (grid0.coords t) (ms0 t) (hs0 t) (ms1 t) (hs1 t) (ms2 t) (hs2 t) (ms3 t) (hs3 t) accM (Memref.isWhole_whole _) (fun h => h0 ((isFirst_iff t).mp h)) (fun h => h1 ((isLast_iff t).mp h)) (iblk m c 0 t) (iblk m c 1 t) (iblk m c 2 t)
      (accAt m c (t.val - 1) (Nat.lt_of_le_of_lt (Nat.sub_le _ _) t.isLt)) := by
  obtain ⟨n, hn⟩ := t
  cases n with
  | zero => exact (by exfalso; exact absurd (Nat.zero_mod _) h0)
  | succ n => exact (dif_neg h0).trans ((dif_neg h1).trans rfl)

theorem accAt_last (c : Dev nD) (t : Fin cfg0.N) (h0 : ¬t.val % 8 = 0) (h1 : t.val % 8 = 7) :
    accAt m c t.val t.isLt = accLast c (grid0.coords t) (ms0 t) (hs0 t) (ms1 t) (hs1 t) (ms2 t) (hs2 t) (ms3 t) (hs3 t) accM (Memref.isWhole_whole _) (fun h => h0 ((isFirst_iff t).mp h)) ((isLast_iff t).mpr h1) (iblk m c 0 t) (iblk m c 1 t) (iblk m c 2 t)
      (accAt m c (t.val - 1) (Nat.lt_of_le_of_lt (Nat.sub_le _ _) t.isLt)) := by
  obtain ⟨n, hn⟩ := t
  cases n with
  | zero => exact (by exfalso; exact absurd (Nat.zero_mod _) h0)
  | succ n => exact (dif_neg h0).trans ((dif_pos h1).trans rfl)

/-- What the output window's staging buffer holds after the body at point `t`: at a point of the last K-block the
    stored block; elsewhere the window is idle and not written back, and the value here is never consulted. -/
def outAt (c : Dev nD) (t : Fin cfg0.N) : Vec F S1024x1024 .f32 :=
  if h1 : t.val % 8 = 7 then
    outLast c (grid0.coords t) (ms0 t) (hs0 t) (ms1 t) (hs1 t) (ms2 t) (hs2 t) (ms3 t) (hs3 t) accM (Memref.isWhole_whole _) (fun h => by have h' : t.val % 8 = 0 := (isFirst_iff t).mp h; omega) ((isLast_iff t).mpr h1) (iblk m c 0 t) (iblk m c 1 t) (iblk m c 2 t)
      (accAt m c (t.val - 1) (Nat.lt_of_le_of_lt (Nat.sub_le _ _) t.isLt))
  else outV.read (Elt F) outV.junk

theorem outAt_last (c : Dev nD) (t : Fin cfg0.N) (h0 : ¬t.val % 8 = 0) (h1 : t.val % 8 = 7) :
    outAt m c t = outLast c (grid0.coords t) (ms0 t) (hs0 t) (ms1 t) (hs1 t) (ms2 t) (hs2 t) (ms3 t) (hs3 t) accM (Memref.isWhole_whole _) (fun h => h0 ((isFirst_iff t).mp h)) ((isLast_iff t).mpr h1) (iblk m c 0 t) (iblk m c 1 t) (iblk m c 2 t)
      (accAt m c (t.val - 1) (Nat.lt_of_le_of_lt (Nat.sub_le _ _) t.isLt)) := by
  unfold outAt; rw [dif_pos h1]

/-! ## The region's invariant -/

/-- Before position `n`: at the first point the accumulator holds anything; afterwards what the point before left. -/
def accInv (c : Dev nD) : (n : ℕ) → n ≤ cfg0.N → sProp 𝕄
  | 0, _ => iprop(∃ d, owns (c : Thread nD τ) accM fullShare d)
  | n + 1, hn => owns (c : Thread nD τ) accM fullShare (accAt m c n hn)

theorem accInv_zero (c : Dev nD) (n : ℕ) (h : n ≤ cfg0.N) (hz : n = 0) :
    accInv m c n h = iprop(∃ d, owns (c : Thread nD τ) accM fullShare d) := by subst hz; rfl
theorem accInv_succ (c : Dev nD) (n : ℕ) (hn : n < cfg0.N) :
    accInv m c (n + 1) hn = owns (c : Thread nD τ) accM fullShare (accAt m c n hn) := rfl
theorem accInv_pos (c : Dev nD) (n : ℕ) (h : n ≤ cfg0.N) (hz : n ≠ 0) :
    accInv m c n h = owns (c : Thread nD τ) accM fullShare (accAt m c (n - 1) (by omega)) := by
  cases n with
  | zero => exact absurd rfl hz
  | succ n => rfl

/-! ## The proof data -/

/-- The arrays as the region finds them; after the body each input's buffer at its block, the output's at
    `outAt`; the invariant the accumulator's; nothing owed; the activations' share dealt in halves between the two
    windows that read them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := accInv m c t.val (Nat.le_of_lt_succ t.isLt)
  q w := match w with
    | ⟨0, _⟩ => fullShare.left
    | ⟨1, _⟩ => fullShare
    | ⟨2, _⟩ => fullShare.right
    | ⟨3, _⟩ => fullShare
  owed _ := 0

theorem A_eq (c : Dev nD) (w : Fin cfg0.W) : (dats m 0 c).A w = V m c (Pipeline.arrRef spec0 w) := by
  dsimp only [dats]

theorem inv_castSucc (c : Dev nD) (t : Fin cfg0.N) :
    (dats m 0 c).Φ t.castSucc = accInv m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = outAt m c t := by dsimp only [dats]

theorem before_0 (c : Dev nD) (t : Fin cfg0.N) (d) : (dats m 0 c).before 0 t d = iblk m c 0 t :=
  before_in0_of m (dats m 0 c) (A_eq m c 0) (after_0 m c) t d
theorem before_1 (c : Dev nD) (t : Fin cfg0.N) (d) : (dats m 0 c).before 1 t d = iblk m c 1 t :=
  before_in1_of m (dats m 0 c) (A_eq m c 1) (after_1 m c) t d
theorem before_2 (c : Dev nD) (t : Fin cfg0.N) (d) : (dats m 0 c).before 2 t d = iblk m c 2 t :=
  before_in2_of m (dats m 0 c) (A_eq m c 2) (after_2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves_in0 (c : Dev nD) (t : Fin cfg0.N) :
    (dats m 0 c).leavesExact 0 t = owns (c : Thread nD τ) (ms0 t) fullShare (iblk m c 0 t) := by
  unfold Dat.leavesExact; rw [live_in0 (grid0.coords t), after_0]
theorem leaves_in1 (c : Dev nD) (t : Fin cfg0.N) :
    (dats m 0 c).leavesExact 1 t = owns (c : Thread nD τ) (ms1 t) fullShare (iblk m c 1 t) := by
  unfold Dat.leavesExact; rw [live_in1 (grid0.coords t), after_1]
theorem leaves_in2 (c : Dev nD) (t : Fin cfg0.N) :
    (dats m 0 c).leavesExact 2 t = owns (c : Thread nD τ) (ms2 t) fullShare (iblk m c 2 t) := by
  unfold Dat.leavesExact; rw [live_in2 (grid0.coords t), after_2]

set_option maxHeartbeats 4800000 in
/-- The body at any point.  The inputs' buffers hold their blocks; the point's K-block says which of the three runs
    applies; the invariant hands the run the accumulator (at anything at the very first point, else at what the point
    before left) and takes it back at this point's contents; off the last K-block the output's buffer goes back as
    it came. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl]
  rw [show (dats m 0 c).Φ t.succ = accInv m c (t.val + 1) t.isLt from rfl, accInv_succ]
  rw [leaves_in0, leaves_in1, leaves_in2]
  have hN : t.val < 512 := lt_of_lt_of_eq t.isLt (show cfg0.N = 512 from N_0)
  by_cases h0 : t.val % 8 = 0
  · have h1 : ¬t.val % 8 = 7 := by omega
    rw [Dat.leavesExact_idle (dats m 0 c) 3 t (idle_out t (fun h => h1 ((isLast_iff t).mp h))) (noFlush_out t (fun h => h1 ((isLast_iff t).mp h)))]
    rw [accAt_first m c t h0 h1]
    unfold accFirst
    by_cases hz : t.val = 0
    · rw [inv_castSucc m c t, accInv_zero m c _ _ hz]
      iintro ⟨HS, Ho, ⟨%d0, H0⟩, ⟨%d1, H1⟩, ⟨%d2, H2⟩, ⟨%d3, H3⟩⟩
      iapply ((runFirst c (grid0.coords t) _ _ _ _ _ _ _ _ _ _ ((isFirst_iff t).mpr h0) (fun h => h1 ((isLast_iff t).mp h)) (iblk m c 0 t) (iblk m c 1 t) (iblk m c 2 t)).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS]
      · unfold owns; iexists _; isplitr
        swap; · iexact HS
        ipureintro; exact View.read_writes_of_cover _ _ _ _ _ (cover_first c _ _ _ _ _ _ _ _ _ _ _ _ _ _ _ _)
      isplitl [Ho]; · iexact Ho
      isplitl [H0]; · iexact H0
      isplitl [H1]; · iexact H1
      isplitl [H2]; · iexact H2
      iexists _; iexact H3
    · rw [inv_castSucc m c t, accInv_pos m c _ _ hz]
      iintro ⟨HS, Ho, ⟨%d0, H0⟩, ⟨%d1, H1⟩, ⟨%d2, H2⟩, ⟨%d3, H3⟩⟩
      iapply ((runFirst c (grid0.coords t) _ _ _ _ _ _ _ _ _ _ ((isFirst_iff t).mpr h0) (fun h => h1 ((isLast_iff t).mp h)) (iblk m c 0 t) (iblk m c 1 t) (iblk m c 2 t)).2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS]
      · unfold owns; iexists _; isplitr
        swap; · iexact HS
        ipureintro; exact View.read_writes_of_cover _ _ _ _ _ (cover_first c _ _ _ _ _ _ _ _ _ _ _ _ _ _ _ _)
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 8 = 7
    · rw [show (dats m 0 c).leavesExact 3 t = owns (c : Thread nD τ) (ms3 t) fullShare ((dats m 0 c).after 3 t) from by
        unfold Dat.leavesExact; rw [live_out t ((isLast_iff t).mpr h1)], after_3]
      rw [accAt_last m c t h0 h1, outAt_last m c t h0 h1]
      unfold accLast outLast
      rw [inv_castSucc m c t, accInv_pos m c _ _ hz]
      iintro ⟨HS, Ho, ⟨%d0, H0⟩, ⟨%d1, H1⟩, ⟨%d2, H2⟩, ⟨%d3, H3⟩⟩
      iapply ((runLast c (grid0.coords t) _ _ _ _ _ _ _ _ _ _ (fun h => h0 ((isFirst_iff t).mp h)) ((isLast_iff t).mpr h1) (iblk m c 0 t) (iblk m c 1 t) (iblk m c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS]
      · unfold owns; iexists _; isplitr
        swap; · iexact HS
        ipureintro; exact View.read_writes_of_cover _ _ _ _ _ (cover_last_acc c _ _ _ _ _ _ _ _ _ _ _ _ _ _ _ _ _)
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover_last_out c _ _ _ _ _ _ _ _ _ _ _ _ _ _ _ _ _)
    · rw [Dat.leavesExact_idle (dats m 0 c) 3 t (idle_out t (fun h => h1 ((isLast_iff t).mp h))) (noFlush_out t (fun h => h1 ((isLast_iff t).mp h)))]
      rw [accAt_mid m c t h0 h1]
      unfold accMid
      rw [inv_castSucc m c t, accInv_pos m c _ _ hz]
      iintro ⟨HS, Ho, ⟨%d0, H0⟩, ⟨%d1, H1⟩, ⟨%d2, H2⟩, ⟨%d3, H3⟩⟩
      iapply ((runMid c (grid0.coords t) _ _ _ _ _ _ _ _ _ _ (fun h => h0 ((isFirst_iff t).mp h)) (fun h => h1 ((isLast_iff t).mp h)) (iblk m c 0 t) (iblk m c 1 t) (iblk m c 2 t) _).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS]
      · unfold owns; iexists _; isplitr
        swap; · iexact HS
        ipureintro; exact View.read_writes_of_cover _ _ _ _ _ (cover_mid c _ _ _ _ _ _ _ _ _ _ _ _ _ _ _ _ _)
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.SharedArraysB.lean ====
/-
  The arrays at the region's entry.  The activations are read through two windows (the left factor's K-blocks and
  the residual block), so their buffer's full share is dealt between them in two halves; the inhibition matrix and
  the result each belong to one window, at the full share.
-/
import proofs.«145392_j68444598829476_1_alg».proof.Proof.FrameSetupB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The three distinct buffers behind the four windows' arrays, each whole at the full share at contents `W`, are
    the proof data's arrays at those contents, when the data give the left factor's window the left half of the
    activations' share, the residual window the right half, and the inhibition matrix's window the full share. -/
theorem arrays_of_bufs {c : Dev nD} (dat : Dat τ (Elt F) Unit ℕ (UR sig nD τ) ℕ cfg0 c)
    (hq0 : dat.q 0 = fullShare.left) (hq1 : dat.q 1 = fullShare) (hq2 : dat.q 2 = fullShare.right)
    (W : (b : Ref sig .tc) → Buf (Elt F) ((c : Thread nD τ).loc b))
    (G : (w : Fin cfg0.W) → Buf (Elt F) ((cfg0.win w).arr.view.loc (c : Thread nD τ)))
    (hG : ∀ w, G w = W (Pipeline.arrRef spec0 w)) :
    (Pipeline.arrBufs (Ix := Unit) (Name := ℕ) (U := UR sig nD τ) (Lvl := ℕ) spec0 c W : sProp 𝕄) ⊢ dat.arrays G := by
  -- the three distinct buffers behind the four windows, one by one
  have hL : (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_arg1) ↦{fullShare} W main_arg1)
          ∗ (((c : Thread nD τ).loc main_v0) ↦{fullShare} W main_v0)) := by
    unfold Pipeline.arrBufs
    exact Idealize.SL.BI.bigSep_eq_bigSepL_of_eq [main_arg0, main_arg1, main_v0] (by decide) (by decide) _
  -- the share each window holds its array at: its own for the three inputs, the full one for the result
  have hs0 : dat.share 0 = fullShare.left := by
    unfold Dat.share; rw [hq0]; rfl
  have hs1 : dat.share 1 = fullShare := by
    unfold Dat.share; rw [hq1]; rfl
  have hs2 : dat.share 2 = fullShare.right := by
    unfold Dat.share; rw [hq2]; rfl
  have hs3 : dat.share 3 = fullShare := by
    unfold Dat.share; rfl
  rw [hL]
  unfold Dat.arrays
  -- every window's array is a whole buffer (the left factor's and the residual's windows read the same one, so its
  -- element set is rewritten once for both), held at the shares above, at the contents `W`
  rw [Gen.bigSep_W0, (Gen.arr_whole0 0).set_eq_univ, (Gen.arr_whole0 1).set_eq_univ,
    (Gen.arr_whole0 3).set_eq_univ, hs0, hs1, hs2, hs3, hG 0, hG 1, hG 2, hG 3]
  iintro ⟨H0, H1, H2⟩
  -- the activations' full share in its two halves: the left to the left factor's window, the right to the residual's
  ihave H0 := (pointsTo_share (PosShare.mem_left_op_right fullShare)).1 $$ H0
  icases H0 with ⟨H0l, H0r⟩
  isplitl [H0l]; · iexact H0l
  isplitl [H1]; · iexact H1
  isplitl [H0r]; · iexact H0r
  iexact H2

end Cert.Kernel.Hand

end
-- ==== Proof.LaunchB.lean ====
/-
  The launch.  The region is entered with every array at its launch contents and the accumulator at anything; the
  activations' buffer is dealt in two halves to the two windows that read it; after the last point the accumulator
  is let go, and each array holds what the write-backs left: the operands what they held at launch.
-/
import proofs.«145392_j68444598829476_1_alg».proof.Proof.FrameB
import proofs.«145392_j68444598829476_1_alg».proof.Proof.SharedArraysB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Entering the region: the scoped rest is the accumulator at anything, the invariant before the first point. -/
theorem inv_in (c : Dev nD) : iprop(emp ∗ Pipeline.scopedRest spec0 c) ⊢ (dats m 0 c).Φ 0 := by
  rw [show (dats m 0 c).Φ 0 = accInv m c 0 (Nat.zero_le _) from rfl, accInv_zero m c 0 _ rfl, scopedRest_acc]
  iintro ⟨-, H⟩; iexact H

/-- Leaving it: the accumulator's contents are forgotten. -/
theorem inv_out (c : Dev nD) : (dats m 0 c).Φ (Fin.last cfg0.N) ⊢ iprop(emp ∗ Pipeline.scopedRest spec0 c) := by
  rw [show (dats m 0 c).Φ (Fin.last cfg0.N) = accInv m c (Fin.last cfg0.N).val (Nat.le_of_lt_succ (Fin.last cfg0.N).isLt) from rfl,
    accInv_pos m c _ _ (by rw [Fin.val_last]; have : cfg0.N = 512 := N_0; omega), scopedRest_acc]
  iintro H; isplitr; · iempintro
  iexists _; iexact H

set_option backward.isDefEq.respectTransparency.types false in
/-- At the compiled mesh, for any float values, from any memory with zero counters: every weakly fair execution of
    the program terminates, nothing faulting, and every array of the region ends at what the proof data's write-backs
    compute. -/
theorem run_main : θ_run defs (onTc (τ := τ) (main (F := F))) (s₀ m ρ)
    (fun r => ∀ (c : Dev nD) (w : Fin cfg0.W), r.2.mem ((cfg0.win w).arr.view.loc (c : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj)) (hu₀ := BI.Entails.refl _)
    (V := fun c b => m ((c : Thread nD τ).loc b))
    (hmain := fun c Q => by
      simp only [main, Prog.lift, Prog.bind_op, Prog.bind_ret]
      iintro ⟨Hk, Hb⟩; iapply Hk; iexact Hb)
    (hsplit := fun c => arrays_of_bufs (dats m 0 c) rfl rfl rfl _ _ (fun w => A_eq m c w))
    (X := fun _ => iprop(emp)) (Y := fun _ => iprop(emp)) (Z := fun _ => iprop(emp))
    (hX := fun c => by rw [unscopedRest0_eq]; iintro -; isplitr <;> iempintro)
    (hin := inv_in m) (hout := inv_out m)
    (QY := fun _ _ => True)
    (hY := fun c s' => by
      iintro ⟨-, -, HSI⟩; imodintro
      isplitr; · ipureintro; trivial
      iexact HSI)
    (hQ := fun _ h c w => (h c).1 w)

/-- The frame: the program runs to the end and its two operand arrays end as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c 0).trans (((dats m 0 c).arrAt_in 0 rfl _).trans (A_eq m c 0)),
     (h c 1).trans (((dats m 0 c).arrAt_in 1 rfl _).trans (A_eq m c 1))⟩) (run_main m ρ)

end Cert.Kernel.Hand

end
-- ==== Proof.FrameSetupI.lean ====
/-
  What the three runs of the kernel body and the launch share.

  The grid is 16 × 4 × 8, the last axis the reduction over K-blocks: point t has K-block t mod 8.  The body zeroes
  the accumulator when the K-block is 0, adds one block product at every point, and stores residual + accumulator
  into the output block when the K-block is 7.  So the output window is touched only at the points ≡ 7 (mod 8),
  which are exactly the points where its block is written back; the residual window is fetched at the points
  ≡ 0 (mod 8) and keeps its block through the seven points that follow.
-/
import proofs.«145392_j68444598829476_1_alg».proof.Proof.Gen.KernelIdeal.Launch
import proofs.«145392_j68444598829476_1_alg».proof.Proof.Gen.KernelIdeal.Skeleton
import proofs.«145392_j68444598829476_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them, and the windows' blocks -/

/-- No host operation precedes the region: a buffer holds its launch contents when the region is entered. -/
abbrev V (c : Dev nD) (b : Ref sig .tc) : Buf (Elt F) ((c : Thread nD τ).loc b) := m ((c : Thread nD τ).loc b)

/-- Window `w`'s block at point `t`, read off its array's entry contents. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or not: between two fetches the
    block index does not move and the body leaves the buffer as it found it. Stated for any proof data whose entry
    array is the region's (`hA`) and whose body leaves the block in place (`hafter`); once per input window. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions, decided over the grid -/

/-- "The K-block is the first": the condition under which the accumulator is zeroed. -/
abbrev isFirst (i : grid0.Coords) : Prop :=
  (Scalar.cmpi .ne (Scalar.extui (Scalar.cmpi .eq (BitVec.ofNat 32 (i 2).val) 0#32)) 0#32) = 1#1
theorem isFirst_iff : ∀ t : Fin cfg0.N, isFirst (grid0.coords t) ↔ t.val % 8 = 0 :=
  (by decide +kernel : ∀ t : Fin grid0.N, isFirst (grid0.coords t) ↔ t.val % 8 = 0)

/-- "The K-block is the last": the condition under which the output block is stored. -/
abbrev isLast (i : grid0.Coords) : Prop := k0_cond2 i = 1#1
theorem isLast_iff : ∀ t : Fin cfg0.N, isLast (grid0.coords t) ↔ t.val % 8 = 7 :=
  (by decide +kernel : ∀ t : Fin grid0.N, isLast (grid0.coords t) ↔ t.val % 8 = 7)

/-! ## Where the output window is idle, and where it is written back -/

theorem live_in0 : ∀ i, cfg0.idle 0 i = false := fun _ => rfl
theorem live_in1 : ∀ i, cfg0.idle 1 i = false := fun _ => rfl
theorem live_in2 : ∀ i, cfg0.idle 2 i = false := fun _ => rfl
/-- Off the last K-block the body stores nothing into the output window, -/
theorem idle_out : ∀ t : Fin cfg0.N, ¬isLast (grid0.coords t) → cfg0.idle 3 (grid0.coords t) = true := by decide +kernel
/-- and the pipeline does not write its block back there. -/
theorem noFlush_out : ∀ t : Fin cfg0.N, ¬isLast (grid0.coords t) → (cfg0.win 3).flush t = false := by decide +kernel
/-- On the last K-block the window is live. -/
theorem live_out : ∀ t : Fin cfg0.N, isLast (grid0.coords t) → cfg0.idle 3 (grid0.coords t) = false := by decide +kernel

/-! ## The memrefs the body is called with -/

abbrev ms0 (t : Fin cfg0.N) : Memref sig .tc .vmem S1024x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x1024 .f32 := win0_3.stage (cfg0.slots t 3)
abbrev hs3 (t : Fin cfg0.N) : (ms3 t).IsWhole := hstage0_3 ((cfg0.slots t 3).cast nbuf0_3)
/-- The accumulator: a whole scoped buffer of the kernel's own. -/
abbrev accM : Memref sig .tc .vmem S1024x1024 .f32 := Memref.whole cc0_scratch0
/-- The views through which the accumulator's and the output block's contents are stated. -/
abbrev accV : View sig .tc .vmem S1024x1024 .f32 := accM.view
abbrev outV : View sig .tc .vmem S1024x1024 .f32 := (Memref.whole cc0_stg3_0 : Memref sig .tc .vmem S1024x1024 .f32).view

/-- The scoped buffers that are no staging buffer are the accumulator alone. -/
theorem scopedRest_acc (c : Dev nD) :
    (Pipeline.scopedRest (Ix := Unit) (Name := ℕ) (U := UR sig nD τ) (Lvl := ℕ) (Val := Elt F) spec0 c : sProp 𝕄)
      = iprop(∃ d, owns (c : Thread nD τ) accM fullShare d) := by
  rw [scopedRest0_eq]; simp only [accM, owns_whole]; try rfl

end Cert.KernelIdeal.Hand

end
-- ==== Proof.BodyFirstI.lean ====
/-
  The body at a point whose K-block is the first (and not the last): the accumulator is zeroed, then the block
  product is added to it; the output block is not touched.
-/
import proofs.«145392_j68444598829476_1_alg».proof.Proof.FrameSetupI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole memrefs — the three input blocks at their contents, the output buffer at any contents, the
    accumulator at anything — the body runs and hands back the inputs and the output buffer as they were and the
    accumulator with the pieces its two stores wrote (the list the run finds, last store first). -/
noncomputable def runFirst (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (hc0 : isFirst i) (hc1 : ¬isLast i)
    (x0 : Vec F S1024x512 .f32) (x1 : Vec F S1024x512 .f32) (x2 : Vec F S1024x1024 .f32) :
    { LS : List (View.Piece (Elt F) S1024x1024 .f32) //
      ∀ (y : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare y ∗ (∃ d, owns (c : Thread nD τ) arg7 fullShare d)
            ∗ (iprop(owns (c : Thread nD τ) arg3 fullShare x0 ∗ owns (c : Thread nD τ) arg4 fullShare x1 ∗ owns (c : Thread nD τ) arg5 fullShare x2
                ∗ owns (c : Thread nD τ) arg6 fullShare y
                ∗ (∃ f, arg7.view.loc (c : Thread nD τ) ↦[arg7.view.set]{fullShare} arg7.view.writes (Elt F) f LS)) -∗ K ⟨⟩))
          ⊢ wp frame (wpE (defs₀ (F := F)) Variants.none c none) E (cc0__kernel i arg3 harg3 arg4 harg4 arg5 harg5 arg6 harg6 arg7 harg7) K } := by
  refine ⟨?_, fun y E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%d7, %f7, -, HS⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.KernelIdeal.Hand

end
-- ==== Proof.BodyMidI.lean ====
/-
  The body at a point whose K-block is neither the first nor the last: the block product is added to the
  accumulator the point before left; the output block is not touched.
-/
import proofs.«145392_j68444598829476_1_alg».proof.Proof.FrameSetupI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole memrefs — the three input blocks at their contents, the output buffer at any contents, the
    accumulator at the contents `acc` the point before left — the body runs and hands back the inputs and the output
    buffer as they were and the accumulator with the piece its store wrote. -/
noncomputable def runMid (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (hc0 : ¬isFirst i) (hc1 : ¬isLast i)
    (x0 : Vec F S1024x512 .f32) (x1 : Vec F S1024x512 .f32) (x2 : Vec F S1024x1024 .f32) (acc : Vec F S1024x1024 .f32) :
    { LS : List (View.Piece (Elt F) S1024x1024 .f32) //
      ∀ (y : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare y ∗ owns (c : Thread nD τ) arg7 fullShare acc
            ∗ (iprop(owns (c : Thread nD τ) arg3 fullShare x0 ∗ owns (c : Thread nD τ) arg4 fullShare x1 ∗ owns (c : Thread nD τ) arg5 fullShare x2
                ∗ owns (c : Thread nD τ) arg6 fullShare y
                ∗ (∃ f, arg7.view.loc (c : Thread nD τ) ↦[arg7.view.set]{fullShare} arg7.view.writes (Elt F) f LS)) -∗ K ⟨⟩))
          ⊢ wp frame (wpE (defs₀ (F := F)) Variants.none c none) E (cc0__kernel i arg3 harg3 arg4 harg4 arg5 harg5 arg6 harg6 arg7 harg7) K } := by
  refine ⟨?_, fun y E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f7, %hf7, HS⟩, Hk⟩
    obtain rfl := harg3.eq_unread hf0; obtain rfl := harg4.eq_unread hf1; obtain rfl := harg5.eq_unread hf2; obtain rfl := harg6.eq_unread hf3
    obtain rfl := harg7.eq_unread hf7
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.KernelIdeal.Hand

end
-- ==== Proof.BodyLastI.lean ====
/-
  The body at a point whose K-block is the last (and not the first): the block product is added to the accumulator
  the point before left, and residual + accumulator is stored into the output block.
-/
import proofs.«145392_j68444598829476_1_alg».proof.Proof.FrameSetupI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole memrefs — the three input blocks at their contents, the output buffer at anything, the accumulator at
    the contents `acc` the point before left — the body runs and hands back the inputs as they were, the output
    buffer with the piece its store wrote and the accumulator with the piece its store wrote. -/
noncomputable def runLast (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (hc0 : ¬isFirst i) (hc1 : isLast i)
    (x0 : Vec F S1024x512 .f32) (x1 : Vec F S1024x512 .f32) (x2 : Vec F S1024x1024 .f32) (acc : Vec F S1024x1024 .f32) :
    Σ' (LO : List (View.Piece (Elt F) S1024x1024 .f32)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ owns (c : Thread nD τ) arg7 fullShare acc
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f LO)
                ∗ (∃ f, arg7.view.loc (c : Thread nD τ) ↦[arg7.view.set]{fullShare} arg7.view.writes (Elt F) f LS)) -∗ K ⟨⟩))
          ⊢ wp frame (wpE (defs₀ (F := F)) Variants.none c none) E (cc0__kernel i arg3 harg3 arg4 harg4 arg5 harg5 arg6 harg6 arg7 harg7) K } := by
  refine ⟨?_, ?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%d3, %f3, -, H3⟩, ⟨%f7, %hf7, HS⟩, Hk⟩
    obtain rfl := harg3.eq_unread hf0; obtain rfl := harg4.eq_unread hf1; obtain rfl := harg5.eq_unread hf2
    obtain rfl := harg7.eq_unread hf7
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.KernelIdeal.Hand

end
-- ==== Proof.FrameI.lean ====
/-
  The frame of the kernel's program: every weakly fair execution terminates without a fault, and each array ends
  at what the write-backs leave in it — the two operands untouched.

  What the accumulator holds after each point is defined by recursion on the point: zeroed and one product added
  when the K-block is the first, one product added to what the point before left otherwise.  The region's invariant
  holds the accumulator at exactly that; the output block is stored at the points of the last K-block, from the
  residual block and the accumulator, and the pipeline writes it back at those points.
-/
import proofs.«145392_j68444598829476_1_alg».proof.Proof.BodyFirstI
import proofs.«145392_j68444598829476_1_alg».proof.Proof.BodyMidI
import proofs.«145392_j68444598829476_1_alg».proof.Proof.BodyLastI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case's stores leave -/

/-- The first case's two stores each cover the accumulator. -/
theorem cover_first (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (hc0 : isFirst i) (hc1 : ¬isLast i)
    (x0 : Vec F S1024x512 .f32) (x1 : Vec F S1024x512 .f32) (x2 : Vec F S1024x1024 .f32) (j : S1024x1024.Idx) :
    ∃ pc ∈ (runFirst c i arg3 harg3 arg4 harg4 arg5 harg5 arg6 harg6 arg7 harg7 hc0 hc1 x0 x1 x2).1, j ∈ pc.1.set :=
  View.cover_of_tiledL (runFirst c i arg3 harg3 arg4 harg4 arg5 harg5 arg6 harg6 arg7 harg7 hc0 hc1 x0 x1 x2).1 S1024x1024.size (by sl_kernel_rfl) j

/-- The accumulator after a point of the first K-block. -/
def accFirst (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (hc0 : isFirst i) (hc1 : ¬isLast i)
    (x0 : Vec F S1024x512 .f32) (x1 : Vec F S1024x512 .f32) (x2 : Vec F S1024x1024 .f32) : Vec F S1024x1024 .f32 :=
  accV.read (Elt F) (accV.writes (Elt F) accV.junk (runFirst c i arg3 harg3 arg4 harg4 arg5 harg5 arg6 harg6 arg7 harg7 hc0 hc1 x0 x1 x2).1)

theorem cover_mid (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (hc0 : ¬isFirst i) (hc1 : ¬isLast i)
    (x0 : Vec F S1024x512 .f32) (x1 : Vec F S1024x512 .f32) (x2 : Vec F S1024x1024 .f32) (acc : Vec F S1024x1024 .f32) (j : S1024x1024.Idx) :
    ∃ pc ∈ (runMid c i arg3 harg3 arg4 harg4 arg5 harg5 arg6 harg6 arg7 harg7 hc0 hc1 x0 x1 x2 acc).1, j ∈ pc.1.set :=
  View.cover_of_tiledL (runMid c i arg3 harg3 arg4 harg4 arg5 harg5 arg6 harg6 arg7 harg7 hc0 hc1 x0 x1 x2 acc).1 S1024x1024.size (by sl_kernel_rfl) j

/-- The accumulator after a point of a middle K-block, from what the point before left. -/
def accMid (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (hc0 : ¬isFirst i) (hc1 : ¬isLast i)
    (x0 : Vec F S1024x512 .f32) (x1 : Vec F S1024x512 .f32) (x2 : Vec F S1024x1024 .f32) (acc : Vec F S1024x1024 .f32) : Vec F S1024x1024 .f32 :=
  accV.read (Elt F) (accV.writes (Elt F) accV.junk (runMid c i arg3 harg3 arg4 harg4 arg5 harg5 arg6 harg6 arg7 harg7 hc0 hc1 x0 x1 x2 acc).1)

theorem cover_last_out (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (hc0 : ¬isFirst i) (hc1 : isLast i)
    (x0 : Vec F S1024x512 .f32) (x1 : Vec F S1024x512 .f32) (x2 : Vec F S1024x1024 .f32) (acc : Vec F S1024x1024 .f32) (j : S1024x1024.Idx) :
    ∃ pc ∈ (runLast c i arg3 harg3 arg4 harg4 arg5 harg5 arg6 harg6 arg7 harg7 hc0 hc1 x0 x1 x2 acc).1, j ∈ pc.1.set :=
  View.cover_of_tiledL (runLast c i arg3 harg3 arg4 harg4 arg5 harg5 arg6 harg6 arg7 harg7 hc0 hc1 x0 x1 x2 acc).1 S1024x1024.size (by sl_kernel_rfl) j

/-- The output block a point of the last K-block stores. -/
def outLast (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (hc0 : ¬isFirst i) (hc1 : isLast i)
    (x0 : Vec F S1024x512 .f32) (x1 : Vec F S1024x512 .f32) (x2 : Vec F S1024x1024 .f32) (acc : Vec F S1024x1024 .f32) : Vec F S1024x1024 .f32 :=
  outV.read (Elt F) (outV.writes (Elt F) outV.junk (runLast c i arg3 harg3 arg4 harg4 arg5 harg5 arg6 harg6 arg7 harg7 hc0 hc1 x0 x1 x2 acc).1)

theorem cover_last_acc (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (hc0 : ¬isFirst i) (hc1 : isLast i)
    (x0 : Vec F S1024x512 .f32) (x1 : Vec F S1024x512 .f32) (x2 : Vec F S1024x1024 .f32) (acc : Vec F S1024x1024 .f32) (j : S1024x1024.Idx) :
    ∃ pc ∈ (runLast c i arg3 harg3 arg4 harg4 arg5 harg5 arg6 harg6 arg7 harg7 hc0 hc1 x0 x1 x2 acc).2.1, j ∈ pc.1.set :=
  View.cover_of_tiledL (runLast c i arg3 harg3 arg4 harg4 arg5 harg5 arg6 harg6 arg7 harg7 hc0 hc1 x0 x1 x2 acc).2.1 S1024x1024.size (by sl_kernel_rfl) j

/-- The accumulator after a point of the last K-block. -/
def accLast (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (hc0 : ¬isFirst i) (hc1 : isLast i)
    (x0 : Vec F S1024x512 .f32) (x1 : Vec F S1024x512 .f32) (x2 : Vec F S1024x1024 .f32) (acc : Vec F S1024x1024 .f32) : Vec F S1024x1024 .f32 :=
  accV.read (Elt F) (accV.writes (Elt F) accV.junk (runLast c i arg3 harg3 arg4 harg4 arg5 harg5 arg6 harg6 arg7 harg7 hc0 hc1 x0 x1 x2 acc).2.1)

/-! ## The accumulator, point by point -/

/-- What the accumulator holds after the body at position `n`. -/
def accAt (c : Dev nD) : (n : ℕ) → n < cfg0.N → Vec F S1024x1024 .f32
  | 0, hn => accFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) accM (Memref.isWhole_whole _) ((isFirst_iff ⟨0, hn⟩).mpr (Nat.zero_mod _))
      (fun h => by have h' : 0 % 8 = 7 := (isLast_iff ⟨0, hn⟩).mp h; omega) (iblk m c 0 ⟨0, hn⟩) (iblk m c 1 ⟨0, hn⟩) (iblk m c 2 ⟨0, hn⟩)
  | n + 1, hn =>
    if h0 : (n + 1) % 8 = 0 then
      accFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) ((isFirst_iff ⟨n + 1, hn⟩).mpr h0)
        (fun h => by have h' : (n + 1) % 8 = 7 := (isLast_iff ⟨n + 1, hn⟩).mp h; omega) (iblk m c 0 ⟨n + 1, hn⟩) (iblk m c 1 ⟨n + 1, hn⟩) (iblk m c 2 ⟨n + 1, hn⟩)
    else if h1 : (n + 1) % 8 = 7 then
      accLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) (fun h => h0 ((isFirst_iff ⟨n + 1, hn⟩).mp h)) ((isLast_iff ⟨n + 1, hn⟩).mpr h1)
        (iblk m c 0 ⟨n + 1, hn⟩) (iblk m c 1 ⟨n + 1, hn⟩) (iblk m c 2 ⟨n + 1, hn⟩) (accAt c n (Nat.lt_of_succ_lt hn))
    else
      accMid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) (fun h => h0 ((isFirst_iff ⟨n + 1, hn⟩).mp h)) (fun h => h1 ((isLast_iff ⟨n + 1, hn⟩).mp h))
        (iblk m c 0 ⟨n + 1, hn⟩) (iblk m c 1 ⟨n + 1, hn⟩) (iblk m c 2 ⟨n + 1, hn⟩) (accAt c n (Nat.lt_of_succ_lt hn))

theorem accAt_first (c : Dev nD) (t : Fin cfg0.N) (h0 : t.val % 8 = 0) (h1 : ¬t.val % 8 = 7) :
    accAt m c t.val t.isLt = accFirst c (grid0.coords t) (ms0 t) (hs0 t) (ms1 t) (hs1 t) (ms2 t) (hs2 t) (ms3 t) (hs3 t) accM (Memref.isWhole_whole _) ((isFirst_iff t).mpr h0) (fun h => h1 ((isLast_iff t).mp h)) (iblk m c 0 t) (iblk m c 1 t) (iblk m c 2 t) := by
  obtain ⟨n, hn⟩ := t
  cases n with
  | zero => exact rfl
  | succ n => exact (dif_pos h0).trans rfl

theorem accAt_mid (c : Dev nD) (t : Fin cfg0.N) (h0 : ¬t.val % 8 = 0) (h1 : ¬t.val % 8 = 7) :
    accAt m c t.val t.isLt = accMid c (grid0.coords t) (ms0 t) (hs0 t) (ms1 t) (hs1 t) (ms2 t) (hs2 t) (ms3 t) (hs3 t) accM (Memref.isWhole_whole _) (fun h => h0 ((isFirst_iff t).mp h)) (fun h => h1 ((isLast_iff t).mp h)) (iblk m c 0 t) (iblk m c 1 t) (iblk m c 2 t)
      (accAt m c (t.val - 1) (Nat.lt_of_le_of_lt (Nat.sub_le _ _) t.isLt)) := by
  obtain ⟨n, hn⟩ := t
  cases n with
  | zero => exact (by exfalso; exact absurd (Nat.zero_mod _) h0)
  | succ n => exact (dif_neg h0).trans ((dif_neg h1).trans rfl)

theorem accAt_last (c : Dev nD) (t : Fin cfg0.N) (h0 : ¬t.val % 8 = 0) (h1 : t.val % 8 = 7) :
    accAt m c t.val t.isLt = accLast c (grid0.coords t) (ms0 t) (hs0 t) (ms1 t) (hs1 t) (ms2 t) (hs2 t) (ms3 t) (hs3 t) accM (Memref.isWhole_whole _) (fun h => h0 ((isFirst_iff t).mp h)) ((isLast_iff t).mpr h1) (iblk m c 0 t) (iblk m c 1 t) (iblk m c 2 t)
      (accAt m c (t.val - 1) (Nat.lt_of_le_of_lt (Nat.sub_le _ _) t.isLt)) := by
  obtain ⟨n, hn⟩ := t
  cases n with
  | zero => exact (by exfalso; exact absurd (Nat.zero_mod _) h0)
  | succ n => exact (dif_neg h0).trans ((dif_pos h1).trans rfl)

/-- What the output window's staging buffer holds after the body at point `t`: at a point of the last K-block the
    stored block; elsewhere the window is idle and not written back, and the value here is never consulted. -/
def outAt (c : Dev nD) (t : Fin cfg0.N) : Vec F S1024x1024 .f32 :=
  if h1 : t.val % 8 = 7 then
    outLast c (grid0.coords t) (ms0 t) (hs0 t) (ms1 t) (hs1 t) (ms2 t) (hs2 t) (ms3 t) (hs3 t) accM (Memref.isWhole_whole _) (fun h => by have h' : t.val % 8 = 0 := (isFirst_iff t).mp h; omega) ((isLast_iff t).mpr h1) (iblk m c 0 t) (iblk m c 1 t) (iblk m c 2 t)
      (accAt m c (t.val - 1) (Nat.lt_of_le_of_lt (Nat.sub_le _ _) t.isLt))
  else outV.read (Elt F) outV.junk

theorem outAt_last (c : Dev nD) (t : Fin cfg0.N) (h0 : ¬t.val % 8 = 0) (h1 : t.val % 8 = 7) :
    outAt m c t = outLast c (grid0.coords t) (ms0 t) (hs0 t) (ms1 t) (hs1 t) (ms2 t) (hs2 t) (ms3 t) (hs3 t) accM (Memref.isWhole_whole _) (fun h => h0 ((isFirst_iff t).mp h)) ((isLast_iff t).mpr h1) (iblk m c 0 t) (iblk m c 1 t) (iblk m c 2 t)
      (accAt m c (t.val - 1) (Nat.lt_of_le_of_lt (Nat.sub_le _ _) t.isLt)) := by
  unfold outAt; rw [dif_pos h1]

/-! ## The region's invariant -/

/-- Before position `n`: at the first point the accumulator holds anything; afterwards what the point before left. -/
def accInv (c : Dev nD) : (n : ℕ) → n ≤ cfg0.N → sProp 𝕄
  | 0, _ => iprop(∃ d, owns (c : Thread nD τ) accM fullShare d)
  | n + 1, hn => owns (c : Thread nD τ) accM fullShare (accAt m c n hn)

theorem accInv_zero (c : Dev nD) (n : ℕ) (h : n ≤ cfg0.N) (hz : n = 0) :
    accInv m c n h = iprop(∃ d, owns (c : Thread nD τ) accM fullShare d) := by subst hz; rfl
theorem accInv_succ (c : Dev nD) (n : ℕ) (hn : n < cfg0.N) :
    accInv m c (n + 1) hn = owns (c : Thread nD τ) accM fullShare (accAt m c n hn) := rfl
theorem accInv_pos (c : Dev nD) (n : ℕ) (h : n ≤ cfg0.N) (hz : n ≠ 0) :
    accInv m c n h = owns (c : Thread nD τ) accM fullShare (accAt m c (n - 1) (by omega)) := by
  cases n with
  | zero => exact absurd rfl hz
  | succ n => rfl

/-! ## The proof data -/

/-- The arrays as the region finds them; after the body each input's buffer at its block, the output's at
    `outAt`; the invariant the accumulator's; nothing owed; the activations' share dealt in halves between the two
    windows that read them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := accInv m c t.val (Nat.le_of_lt_succ t.isLt)
  q w := match w with
    | ⟨0, _⟩ => fullShare.left
    | ⟨1, _⟩ => fullShare
    | ⟨2, _⟩ => fullShare.right
    | ⟨3, _⟩ => fullShare
  owed _ := 0

theorem A_eq (c : Dev nD) (w : Fin cfg0.W) : (dats m 0 c).A w = V m c (Pipeline.arrRef spec0 w) := by
  dsimp only [dats]

theorem inv_castSucc (c : Dev nD) (t : Fin cfg0.N) :
    (dats m 0 c).Φ t.castSucc = accInv m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = outAt m c t := by dsimp only [dats]

theorem before_0 (c : Dev nD) (t : Fin cfg0.N) (d) : (dats m 0 c).before 0 t d = iblk m c 0 t :=
  before_in0_of m (dats m 0 c) (A_eq m c 0) (after_0 m c) t d
theorem before_1 (c : Dev nD) (t : Fin cfg0.N) (d) : (dats m 0 c).before 1 t d = iblk m c 1 t :=
  before_in1_of m (dats m 0 c) (A_eq m c 1) (after_1 m c) t d
theorem before_2 (c : Dev nD) (t : Fin cfg0.N) (d) : (dats m 0 c).before 2 t d = iblk m c 2 t :=
  before_in2_of m (dats m 0 c) (A_eq m c 2) (after_2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves_in0 (c : Dev nD) (t : Fin cfg0.N) :
    (dats m 0 c).leavesExact 0 t = owns (c : Thread nD τ) (ms0 t) fullShare (iblk m c 0 t) := by
  unfold Dat.leavesExact; rw [live_in0 (grid0.coords t), after_0]
theorem leaves_in1 (c : Dev nD) (t : Fin cfg0.N) :
    (dats m 0 c).leavesExact 1 t = owns (c : Thread nD τ) (ms1 t) fullShare (iblk m c 1 t) := by
  unfold Dat.leavesExact; rw [live_in1 (grid0.coords t), after_1]
theorem leaves_in2 (c : Dev nD) (t : Fin cfg0.N) :
    (dats m 0 c).leavesExact 2 t = owns (c : Thread nD τ) (ms2 t) fullShare (iblk m c 2 t) := by
  unfold Dat.leavesExact; rw [live_in2 (grid0.coords t), after_2]

set_option maxHeartbeats 4800000 in
/-- The body at any point.  The inputs' buffers hold their blocks; the point's K-block says which of the three runs
    applies; the invariant hands the run the accumulator (at anything at the very first point, else at what the point
    before left) and takes it back at this point's contents; off the last K-block the output's buffer goes back as
    it came. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl]
  rw [show (dats m 0 c).Φ t.succ = accInv m c (t.val + 1) t.isLt from rfl, accInv_succ]
  rw [leaves_in0, leaves_in1, leaves_in2]
  have hN : t.val < 512 := lt_of_lt_of_eq t.isLt (show cfg0.N = 512 from N_0)
  by_cases h0 : t.val % 8 = 0
  · have h1 : ¬t.val % 8 = 7 := by omega
    rw [Dat.leavesExact_idle (dats m 0 c) 3 t (idle_out t (fun h => h1 ((isLast_iff t).mp h))) (noFlush_out t (fun h => h1 ((isLast_iff t).mp h)))]
    rw [accAt_first m c t h0 h1]
    unfold accFirst
    by_cases hz : t.val = 0
    · rw [inv_castSucc m c t, accInv_zero m c _ _ hz]
      iintro ⟨HS, Ho, ⟨%d0, H0⟩, ⟨%d1, H1⟩, ⟨%d2, H2⟩, ⟨%d3, H3⟩⟩
      iapply ((runFirst c (grid0.coords t) _ _ _ _ _ _ _ _ _ _ ((isFirst_iff t).mpr h0) (fun h => h1 ((isLast_iff t).mp h)) (iblk m c 0 t) (iblk m c 1 t) (iblk m c 2 t)).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS]
      · unfold owns; iexists _; isplitr
        swap; · iexact HS
        ipureintro; exact View.read_writes_of_cover _ _ _ _ _ (cover_first c _ _ _ _ _ _ _ _ _ _ _ _ _ _ _ _)
      isplitl [Ho]; · iexact Ho
      isplitl [H0]; · iexact H0
      isplitl [H1]; · iexact H1
      isplitl [H2]; · iexact H2
      iexists _; iexact H3
    · rw [inv_castSucc m c t, accInv_pos m c _ _ hz]
      iintro ⟨HS, Ho, ⟨%d0, H0⟩, ⟨%d1, H1⟩, ⟨%d2, H2⟩, ⟨%d3, H3⟩⟩
      iapply ((runFirst c (grid0.coords t) _ _ _ _ _ _ _ _ _ _ ((isFirst_iff t).mpr h0) (fun h => h1 ((isLast_iff t).mp h)) (iblk m c 0 t) (iblk m c 1 t) (iblk m c 2 t)).2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS]
      · unfold owns; iexists _; isplitr
        swap; · iexact HS
        ipureintro; exact View.read_writes_of_cover _ _ _ _ _ (cover_first c _ _ _ _ _ _ _ _ _ _ _ _ _ _ _ _)
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 8 = 7
    · rw [show (dats m 0 c).leavesExact 3 t = owns (c : Thread nD τ) (ms3 t) fullShare ((dats m 0 c).after 3 t) from by
        unfold Dat.leavesExact; rw [live_out t ((isLast_iff t).mpr h1)], after_3]
      rw [accAt_last m c t h0 h1, outAt_last m c t h0 h1]
      unfold accLast outLast
      rw [inv_castSucc m c t, accInv_pos m c _ _ hz]
      iintro ⟨HS, Ho, ⟨%d0, H0⟩, ⟨%d1, H1⟩, ⟨%d2, H2⟩, ⟨%d3, H3⟩⟩
      iapply ((runLast c (grid0.coords t) _ _ _ _ _ _ _ _ _ _ (fun h => h0 ((isFirst_iff t).mp h)) ((isLast_iff t).mpr h1) (iblk m c 0 t) (iblk m c 1 t) (iblk m c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS]
      · unfold owns; iexists _; isplitr
        swap; · iexact HS
        ipureintro; exact View.read_writes_of_cover _ _ _ _ _ (cover_last_acc c _ _ _ _ _ _ _ _ _ _ _ _ _ _ _ _ _)
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover_last_out c _ _ _ _ _ _ _ _ _ _ _ _ _ _ _ _ _)
    · rw [Dat.leavesExact_idle (dats m 0 c) 3 t (idle_out t (fun h => h1 ((isLast_iff t).mp h))) (noFlush_out t (fun h => h1 ((isLast_iff t).mp h)))]
      rw [accAt_mid m c t h0 h1]
      unfold accMid
      rw [inv_castSucc m c t, accInv_pos m c _ _ hz]
      iintro ⟨HS, Ho, ⟨%d0, H0⟩, ⟨%d1, H1⟩, ⟨%d2, H2⟩, ⟨%d3, H3⟩⟩
      iapply ((runMid c (grid0.coords t) _ _ _ _ _ _ _ _ _ _ (fun h => h0 ((isFirst_iff t).mp h)) (fun h => h1 ((isLast_iff t).mp h)) (iblk m c 0 t) (iblk m c 1 t) (iblk m c 2 t) _).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS]
      · unfold owns; iexists _; isplitr
        swap; · iexact HS
        ipureintro; exact View.read_writes_of_cover _ _ _ _ _ (cover_mid c _ _ _ _ _ _ _ _ _ _ _ _ _ _ _ _ _)
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.PiecesI.lean ====
/-
  What the stores of each case leave, as the body's own arithmetic: the accumulator after a point is one block
  product added to the zero block (first K-block) or to what the point before left (the others); the stored output
  block is the residual block plus that accumulator.
-/
import proofs.«145392_j68444598829476_1_alg».proof.Proof.FrameI
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Every load and store of the body goes through the whole buffer: the rectangle at offset (0, 0). -/
theorem zero_off : (![0, 0] : Fin 2 → Nat) = fun _ => 0 := funext fun a => by fin_cases a <;> rfl

/-- First K-block: the zero block, read back, plus the block product. -/
theorem accFirst_eq (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (hc0 : isFirst i) (hc1 : ¬isLast i)
    (x0 : Vec F S1024x512 .f32) (x1 : Vec F S1024x512 .f32) (x2 : Vec F S1024x1024 .f32) :
    accFirst c i arg3 harg3 arg4 harg4 arg5 harg5 arg6 harg6 arg7 harg7 hc0 hc1 x0 x1 x2 = k0_pay2 x0 x1 (k0_pay1 (F := F)) := by
  unfold accFirst
  rw [View.read_writes_eq_canon _ _ _ (cover_first c i arg3 harg3 arg4 harg4 arg5 harg5 arg6 harg6 arg7 harg7 hc0 hc1 x0 x1 x2)]
  unfold runFirst
  dsimp only
  sl_unfold_words
  rw [View.canon_cons_unit_zero zero_off]
  simp only [View.readAt_eq_ld, Memref.IsWhole.read_unread, View.ld_unit_zero (S := S1024x512) zero_off]
  rw [View.readCov_unit_zero (S := S1024x1024) arg7.view zero_off]

/-- A middle K-block: what the point before left plus the block product. -/
theorem accMid_eq (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (hc0 : ¬isFirst i) (hc1 : ¬isLast i)
    (x0 : Vec F S1024x512 .f32) (x1 : Vec F S1024x512 .f32) (x2 : Vec F S1024x1024 .f32) (acc : Vec F S1024x1024 .f32) :
    accMid c i arg3 harg3 arg4 harg4 arg5 harg5 arg6 harg6 arg7 harg7 hc0 hc1 x0 x1 x2 acc = k0_pay2 x0 x1 acc := by
  unfold accMid
  rw [View.read_writes_eq_canon _ _ _ (cover_mid c i arg3 harg3 arg4 harg4 arg5 harg5 arg6 harg6 arg7 harg7 hc0 hc1 x0 x1 x2 acc)]
  unfold runMid
  dsimp only
  sl_unfold_words
  rw [View.canon_unit_zero zero_off]
  simp only [View.readAt_eq_ld, Memref.IsWhole.read_unread, View.ld_unit_zero (S := S1024x512) zero_off, View.ld_unit_zero (S := S1024x1024) zero_off]

/-- The last K-block, the accumulator: what the point before left plus the block product. -/
theorem accLast_eq (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (hc0 : ¬isFirst i) (hc1 : isLast i)
    (x0 : Vec F S1024x512 .f32) (x1 : Vec F S1024x512 .f32) (x2 : Vec F S1024x1024 .f32) (acc : Vec F S1024x1024 .f32) :
    accLast c i arg3 harg3 arg4 harg4 arg5 harg5 arg6 harg6 arg7 harg7 hc0 hc1 x0 x1 x2 acc = k0_pay2 x0 x1 acc := by
  unfold accLast
  rw [View.read_writes_eq_canon _ _ _ (cover_last_acc c i arg3 harg3 arg4 harg4 arg5 harg5 arg6 harg6 arg7 harg7 hc0 hc1 x0 x1 x2 acc)]
  unfold runLast
  dsimp only
  sl_unfold_words
  rw [View.canon_unit_zero zero_off]
  simp only [View.readAt_eq_ld, Memref.IsWhole.read_unread, View.ld_unit_zero (S := S1024x512) zero_off, View.ld_unit_zero (S := S1024x1024) zero_off]

/-- The last K-block, the output block: the residual block plus the accumulator just stored. -/
theorem outLast_eq (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (hc0 : ¬isFirst i) (hc1 : isLast i)
    (x0 : Vec F S1024x512 .f32) (x1 : Vec F S1024x512 .f32) (x2 : Vec F S1024x1024 .f32) (acc : Vec F S1024x1024 .f32) :
    outLast c i arg3 harg3 arg4 harg4 arg5 harg5 arg6 harg6 arg7 harg7 hc0 hc1 x0 x1 x2 acc = k0_pay3 x2 (k0_pay2 x0 x1 acc) := by
  unfold outLast
  rw [View.read_writes_eq_canon _ _ _ (cover_last_out c i arg3 harg3 arg4 harg4 arg5 harg5 arg6 harg6 arg7 harg7 hc0 hc1 x0 x1 x2 acc)]
  unfold runLast
  dsimp only
  sl_unfold_words
  rw [View.canon_unit_zero zero_off]
  simp only [View.readAt_eq_ld, Memref.IsWhole.read_unread, View.ld_unit_zero (S := S1024x512) zero_off, View.ld_unit_zero (S := S1024x1024) zero_off]
  rw [View.readCov_unit_zero (S := S1024x1024) arg7.view zero_off]

end Cert.KernelIdeal.Hand

end
-- ==== Proof.SharedArraysI.lean ====
/-
  The arrays at the region's entry.  The activations are read through two windows (the left factor's K-blocks and
  the residual block), so their buffer's full share is dealt between them in two halves; the inhibition matrix and
  the result each belong to one window, at the full share.
-/
import proofs.«145392_j68444598829476_1_alg».proof.Proof.FrameSetupI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The three distinct buffers behind the four windows' arrays, each whole at the full share at contents `W`, are
    the proof data's arrays at those contents, when the data give the left factor's window the left half of the
    activations' share, the residual window the right half, and the inhibition matrix's window the full share. -/
theorem arrays_of_bufs {c : Dev nD} (dat : Dat τ (Elt F) Unit ℕ (UR sig nD τ) ℕ cfg0 c)
    (hq0 : dat.q 0 = fullShare.left) (hq1 : dat.q 1 = fullShare) (hq2 : dat.q 2 = fullShare.right)
    (W : (b : Ref sig .tc) → Buf (Elt F) ((c : Thread nD τ).loc b))
    (G : (w : Fin cfg0.W) → Buf (Elt F) ((cfg0.win w).arr.view.loc (c : Thread nD τ)))
    (hG : ∀ w, G w = W (Pipeline.arrRef spec0 w)) :
    (Pipeline.arrBufs (Ix := Unit) (Name := ℕ) (U := UR sig nD τ) (Lvl := ℕ) spec0 c W : sProp 𝕄) ⊢ dat.arrays G := by
  -- the three distinct buffers behind the four windows, one by one
  have hL : (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_arg1) ↦{fullShare} W main_arg1)
          ∗ (((c : Thread nD τ).loc main_v0) ↦{fullShare} W main_v0)) := by
    unfold Pipeline.arrBufs
    exact Idealize.SL.BI.bigSep_eq_bigSepL_of_eq [main_arg0, main_arg1, main_v0] (by decide) (by decide) _
  -- the share each window holds its array at: its own for the three inputs, the full one for the result
  have hs0 : dat.share 0 = fullShare.left := by
    unfold Dat.share; rw [hq0]; rfl
  have hs1 : dat.share 1 = fullShare := by
    unfold Dat.share; rw [hq1]; rfl
  have hs2 : dat.share 2 = fullShare.right := by
    unfold Dat.share; rw [hq2]; rfl
  have hs3 : dat.share 3 = fullShare := by
    unfold Dat.share; rfl
  rw [hL]
  unfold Dat.arrays
  -- every window's array is a whole buffer (the left factor's and the residual's windows read the same one, so its
  -- element set is rewritten once for both), held at the shares above, at the contents `W`
  rw [Gen.bigSep_W0, (Gen.arr_whole0 0).set_eq_univ, (Gen.arr_whole0 1).set_eq_univ,
    (Gen.arr_whole0 3).set_eq_univ, hs0, hs1, hs2, hs3, hG 0, hG 1, hG 2, hG 3]
  iintro ⟨H0, H1, H2⟩
  -- the activations' full share in its two halves: the left to the left factor's window, the right to the residual's
  ihave H0 := (pointsTo_share (PosShare.mem_left_op_right fullShare)).1 $$ H0
  icases H0 with ⟨H0l, H0r⟩
  isplitl [H0l]; · iexact H0l
  isplitl [H1]; · iexact H1
  isplitl [H0r]; · iexact H0r
  iexact H2

end Cert.KernelIdeal.Hand

end
-- ==== Proof.LaunchI.lean ====
/-
  The launch.  The region is entered with every array at its launch contents and the accumulator at anything; the
  activations' buffer is dealt in two halves to the two windows that read it; after the last point the accumulator
  is let go, and each array holds what the write-backs left: the operands what they held at launch.
-/
import proofs.«145392_j68444598829476_1_alg».proof.Proof.FrameI
import proofs.«145392_j68444598829476_1_alg».proof.Proof.SharedArraysI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Entering the region: the scoped rest is the accumulator at anything, the invariant before the first point. -/
theorem inv_in (c : Dev nD) : iprop(emp ∗ Pipeline.scopedRest spec0 c) ⊢ (dats m 0 c).Φ 0 := by
  rw [show (dats m 0 c).Φ 0 = accInv m c 0 (Nat.zero_le _) from rfl, accInv_zero m c 0 _ rfl, scopedRest_acc]
  iintro ⟨-, H⟩; iexact H

/-- Leaving it: the accumulator's contents are forgotten. -/
theorem inv_out (c : Dev nD) : (dats m 0 c).Φ (Fin.last cfg0.N) ⊢ iprop(emp ∗ Pipeline.scopedRest spec0 c) := by
  rw [show (dats m 0 c).Φ (Fin.last cfg0.N) = accInv m c (Fin.last cfg0.N).val (Nat.le_of_lt_succ (Fin.last cfg0.N).isLt) from rfl,
    accInv_pos m c _ _ (by rw [Fin.val_last]; have : cfg0.N = 512 := N_0; omega), scopedRest_acc]
  iintro H; isplitr; · iempintro
  iexists _; iexact H

set_option backward.isDefEq.respectTransparency.types false in
/-- At the compiled mesh, for any float values, from any memory with zero counters: every weakly fair execution of
    the program terminates, nothing faulting, and every array of the region ends at what the proof data's write-backs
    compute. -/
theorem run_main : θ_run defs (onTc (τ := τ) (main (F := F))) (s₀ m ρ)
    (fun r => ∀ (c : Dev nD) (w : Fin cfg0.W), r.2.mem ((cfg0.win w).arr.view.loc (c : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj)) (hu₀ := BI.Entails.refl _)
    (V := fun c b => m ((c : Thread nD τ).loc b))
    (hmain := fun c Q => by
      simp only [main, Prog.lift, Prog.bind_op, Prog.bind_ret]
      iintro ⟨Hk, Hb⟩; iapply Hk; iexact Hb)
    (hsplit := fun c => arrays_of_bufs (dats m 0 c) rfl rfl rfl _ _ (fun w => A_eq m c w))
    (X := fun _ => iprop(emp)) (Y := fun _ => iprop(emp)) (Z := fun _ => iprop(emp))
    (hX := fun c => by rw [unscopedRest0_eq]; iintro -; isplitr <;> iempintro)
    (hin := inv_in m) (hout := inv_out m)
    (QY := fun _ _ => True)
    (hY := fun c s' => by
      iintro ⟨-, -, HSI⟩; imodintro
      isplitr; · ipureintro; trivial
      iexact HSI)
    (hQ := fun _ h c w => (h c).1 w)

/-- The frame: the program runs to the end and its two operand arrays end as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c 0).trans (((dats m 0 c).arrAt_in 0 rfl _).trans (A_eq m c 0)),
     (h c 1).trans (((dats m 0 c).arrAt_in 1 rfl _).trans (A_eq m c 1))⟩) (run_main m ρ)

end Cert.KernelIdeal.Hand

end
-- ==== Proof.Accum.lean ====
/-
  The accumulator of the K-blocked product, read entry by entry on the extended reals.

  One grid step adds to the accumulator block the product of a 1024×512 block of the left operand with the
  transpose of a 1024×512 block of the right operand: entry (p, q) gains Σ_r a(p, r) · b(q, r).  Starting from
  the zero block, after the blocks 0 … j the accumulator's entry (p, q) is the double sum over those blocks;
  the final store adds the residual block entrywise.
-/
import proofs.«145392_j68444598829476_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Inhibit

open Cert.KernelIdeal Cert.KernelIdeal.Gen Idealize.ShloMosaic Idealize.ShloMosaic.ValueIdx

/-- The accumulator block after the K-blocks `0 … j`: the first step adds block 0's product to the zero block,
    each later step adds its block's product to what the step before left. -/
def accum (a b : ℕ → Vec Ideal S1024x512 .f32) : ℕ → FVec Ideal S1024x1024 .f32
  | 0 => k0_pay2 (F := Ideal) (a 0) (b 0) (k0_pay1 (F := Ideal))
  | j + 1 => k0_pay2 (F := Ideal) (a (j + 1)) (b (j + 1)) (accum a b j)

/-- The product's left operand index at output entry (p, q) and contraction coordinate r is (p, r). -/
theorem dot_lhsIdx (p q : Fin 1024) (r : Fin 512) :
    dot_S1024x512_S1024x512_S1024x1024_1_1_0_0_n_n.lhsIdx (ix2 p q)
        ((contrEquiv1 dot_S1024x512_S1024x512_S1024x1024_1_1_0_0_n_n 512 rfl rfl).symm r) = ix2 p r := by
  have hr := contrEquiv1_symm_val dot_S1024x512_S1024x512_S1024x1024_1_1_0_0_n_n 512 rfl rfl r
  refine funext fun a => Fin.ext ?_
  match a with
  | ⟨0, _⟩ =>
    show (dot_S1024x512_S1024x512_S1024x1024_1_1_0_0_n_n.lhsIdx (ix2 p q) _ 0).val = p.val
    unfold DotDims.lhsIdx
    rw [dif_neg (show ¬(0 : Fin S1024x512.rank) ∈ dot_S1024x512_S1024x512_S1024x1024_1_1_0_0_n_n.lhsBatch by decide),
      dif_pos (show (0 : Fin S1024x512.rank) ∈ dot_S1024x512_S1024x512_S1024x1024_1_1_0_0_n_n.lhsNonContracting by decide)]
    rfl
  | ⟨1, _⟩ =>
    exact (dot_S1024x512_S1024x512_S1024x1024_1_1_0_0_n_n.lhsIdx_val_of_single rfl (ix2 p q) _).trans hr

/-- The product's right operand index at output entry (p, q) and contraction coordinate r is (q, r). -/
theorem dot_rhsIdx (p q : Fin 1024) (r : Fin 512) :
    dot_S1024x512_S1024x512_S1024x1024_1_1_0_0_n_n.rhsIdx (ix2 p q)
        ((contrEquiv1 dot_S1024x512_S1024x512_S1024x1024_1_1_0_0_n_n 512 rfl rfl).symm r) = ix2 q r := by
  have hr := contrEquiv1_symm_val dot_S1024x512_S1024x512_S1024x1024_1_1_0_0_n_n 512 rfl rfl r
  refine funext fun a => Fin.ext ?_
  match a with
  | ⟨0, _⟩ =>
    show (dot_S1024x512_S1024x512_S1024x1024_1_1_0_0_n_n.rhsIdx (ix2 p q) _ 0).val = q.val
    unfold DotDims.rhsIdx
    rw [dif_neg (show ¬(0 : Fin S1024x512.rank) ∈ dot_S1024x512_S1024x512_S1024x1024_1_1_0_0_n_n.rhsBatch by decide),
      dif_pos (show (0 : Fin S1024x512.rank) ∈ dot_S1024x512_S1024x512_S1024x1024_1_1_0_0_n_n.rhsNonContracting by decide)]
    rfl
  | ⟨1, _⟩ =>
    exact (dot_S1024x512_S1024x512_S1024x1024_1_1_0_0_n_n.rhsIdx_val_of_single rfl (ix2 p q) _).trans hr

/-- One step at an entry: the accumulator's entry plus the row-by-row product of the two blocks. -/
theorem pay2_apply (a b : Vec Ideal S1024x512 .f32) (acc : Vec Ideal S1024x1024 .f32) (p q : Fin 1024) :
    k0_pay2 (F := Ideal) a b acc (ix2 p q) = acc (ix2 p q) + ∑ r : Fin 512, a (ix2 p r) * b (ix2 q r) := by
  unfold k0_pay2
  rw [shapeCast_self]
  refine (addf_apply _ _ _).trans ?_
  refine congrArg (acc (ix2 p q) + ·) ?_
  refine (Ideal.matmul_constant_zero_apply _ none _ _ (ix2 p q)).trans ?_
  rw [← Equiv.sum_comp (contrEquiv1 dot_S1024x512_S1024x512_S1024x1024_1_1_0_0_n_n 512 rfl rfl).symm]
  refine Finset.sum_congr rfl fun r _ => ?_
  rw [dot_lhsIdx, dot_rhsIdx]
  rfl

/-- The zero block. -/
theorem pay1_apply (p q : Fin 1024) : k0_pay1 (F := Ideal) (ix2 p q) = (0 : EReal) := by
  unfold k0_pay1
  rw [shapeCast_self]
  exact Ideal.ofBits_zero_f32

/-- After the blocks `0 … j`, entry (p, q) is the sum over those blocks of the blocks' row products. -/
theorem accum_apply (a b : ℕ → Vec Ideal S1024x512 .f32) (j : ℕ) (p q : Fin 1024) :
    accum a b j (ix2 p q) = ∑ l ∈ Finset.range (j + 1), ∑ r : Fin 512, a l (ix2 p r) * b l (ix2 q r) := by
  induction j with
  | zero =>
    show k0_pay2 (F := Ideal) (a 0) (b 0) (k0_pay1 (F := Ideal)) (ix2 p q) = _
    rw [pay2_apply, pay1_apply, zero_add, Finset.sum_range_one]
  | succ j ih =>
    show k0_pay2 (F := Ideal) (a (j + 1)) (b (j + 1)) (accum a b j) (ix2 p q) = _
    rw [pay2_apply, ih, Finset.sum_range_succ _ (j + 1)]

/-- The stored output block: the residual entry plus the accumulated double sum. -/
theorem out_apply (res : Vec Ideal S1024x1024 .f32) (a b : ℕ → Vec Ideal S1024x512 .f32) (j : ℕ) (p q : Fin 1024) :
    k0_pay3 (F := Ideal) res (accum a b j) (ix2 p q)
      = res (ix2 p q) + ∑ l ∈ Finset.range (j + 1), ∑ r : Fin 512, a l (ix2 p r) * b l (ix2 q r) := by
  unfold k0_pay3
  refine (addf_apply _ _ _).trans ?_
  rw [accum_apply]

end Cert.KernelIdeal.Inhibit

end
-- ==== Proof.BlockReadsI.lean ====
/-
  Where a block's entry sits in its array.  Point t of the 16 × 4 × 8 grid has row-block t / 32, column-block
  (t / 8) mod 4 and K-block t mod 8.  The left factor's window reads rows of the row-block and columns of the
  K-block of the activations; the right factor's window reads rows of the column-block and columns of the K-block
  of the inhibition matrix; the residual and the result windows read rows of the row-block and columns of the
  column-block.  The result's blocks at the points of the last K-block cover the whole result.
-/
import proofs.«145392_j68444598829476_1_alg».proof.Proof.FrameSetupI
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-- Row `p` of the row-block of point `t`, as a row of the activations. -/
def rowOf (t : Fin cfg0.N) (p : Fin 1024) : Fin 16384 :=
  ⟨(t.val / 32) * 1024 + p.val, by have := t.isLt; have hN : cfg0.N = 512 := N_0; omega⟩
/-- Column `q` of the column-block of point `t`, as a column of the result (a row of the inhibition matrix). -/
def colOf (t : Fin cfg0.N) (q : Fin 1024) : Fin 4096 :=
  ⟨((t.val / 8) % 4) * 1024 + q.val, by omega⟩
/-- Index `r` of the K-block of point `t`, as a contraction index. -/
def kOf (t : Fin cfg0.N) (r : Fin 512) : Fin 4096 :=
  ⟨(t.val % 8) * 512 + r.val, by omega⟩

/-- The windows' block indices over the grid: the left factor's window moves with the row-block and the K-block, the
    right factor's with the column-block and the K-block, the residual's and the result's with the row-block and the
    column-block. -/
theorem idx0 : ∀ t : Fin cfg0.N, win0_0.index t (0 : Fin 2) = t.val / 32 ∧ win0_0.index t (1 : Fin 2) = t.val % 8 :=
  (by decide +kernel : ∀ t : Fin grid0.N, _)
theorem idx1 : ∀ t : Fin cfg0.N, win0_1.index t (0 : Fin 2) = (t.val / 8) % 4 ∧ win0_1.index t (1 : Fin 2) = t.val % 8 :=
  (by decide +kernel : ∀ t : Fin grid0.N, _)
theorem idx2 : ∀ t : Fin cfg0.N, win0_2.index t (0 : Fin 2) = t.val / 32 ∧ win0_2.index t (1 : Fin 2) = (t.val / 8) % 4 :=
  (by decide +kernel : ∀ t : Fin grid0.N, _)
theorem idx3 : ∀ t : Fin cfg0.N, win0_3.index t (0 : Fin 2) = t.val / 32 ∧ win0_3.index t (1 : Fin 2) = (t.val / 8) % 4 :=
  (by decide +kernel : ∀ t : Fin grid0.N, _)

/-- The left factor's block at point `t`, entry (p, r): the activations at (row, K index). -/
theorem iblk0_apply (c : Dev nD) (t : Fin cfg0.N) (p : Fin 1024) (r : Fin 512) :
    (iblk m c 0 t : Vec F S1024x512 .f32) (ix2 p r)
      = (m ((c : Thread nD τ).loc main_arg0) : Vec F S16384x4096 .f32) (ix2 (rowOf t p) (kOf t r)) := by
  unfold iblk
  rw [View.read_apply]
  show V m c main_arg0 (((cfg0.win 0).blk t).view.emb (ix2 p r)) = V m c main_arg0 (ix2 (rowOf t p) (kOf t r))
  refine congrArg (V m c main_arg0) ?_
  obtain ⟨e0, e1⟩ := idx0 t
  funext a; apply Fin.ext
  match a with
  | ⟨0, _⟩ => show win0_0.index t (0 : Fin 2) * 1024 + 1 * p.val = (t.val / 32) * 1024 + p.val; omega
  | ⟨1, _⟩ => show win0_0.index t (1 : Fin 2) * 512 + 1 * r.val = (t.val % 8) * 512 + r.val; omega

/-- The right factor's block at point `t`, entry (q, r): the inhibition matrix at (column, K index). -/
theorem iblk1_apply (c : Dev nD) (t : Fin cfg0.N) (q : Fin 1024) (r : Fin 512) :
    (iblk m c 1 t : Vec F S1024x512 .f32) (ix2 q r)
      = (m ((c : Thread nD τ).loc main_arg1) : Vec F S4096x4096 .f32) (ix2 (colOf t q) (kOf t r)) := by
  unfold iblk
  rw [View.read_apply]
  show V m c main_arg1 (((cfg0.win 1).blk t).view.emb (ix2 q r)) = V m c main_arg1 (ix2 (colOf t q) (kOf t r))
  refine congrArg (V m c main_arg1) ?_
  obtain ⟨e0, e1⟩ := idx1 t
  funext a; apply Fin.ext
  match a with
  | ⟨0, _⟩ => show win0_1.index t (0 : Fin 2) * 1024 + 1 * q.val = ((t.val / 8) % 4) * 1024 + q.val; omega
  | ⟨1, _⟩ => show win0_1.index t (1 : Fin 2) * 512 + 1 * r.val = (t.val % 8) * 512 + r.val; omega

/-- The residual block at point `t`, entry (p, q): the activations at (row, column). -/
theorem iblk2_apply (c : Dev nD) (t : Fin cfg0.N) (p q : Fin 1024) :
    (iblk m c 2 t : Vec F S1024x1024 .f32) (ix2 p q)
      = (m ((c : Thread nD τ).loc main_arg0) : Vec F S16384x4096 .f32) (ix2 (rowOf t p) (colOf t q)) := by
  unfold iblk
  rw [View.read_apply]
  show V m c main_arg0 (((cfg0.win 2).blk t).view.emb (ix2 p q)) = V m c main_arg0 (ix2 (rowOf t p) (colOf t q))
  refine congrArg (V m c main_arg0) ?_
  obtain ⟨e0, e1⟩ := idx2 t
  funext a; apply Fin.ext
  match a with
  | ⟨0, _⟩ => show win0_2.index t (0 : Fin 2) * 1024 + 1 * p.val = (t.val / 32) * 1024 + p.val; omega
  | ⟨1, _⟩ => show win0_2.index t (1 : Fin 2) * 1024 + 1 * q.val = ((t.val / 8) % 4) * 1024 + q.val; omega

/-- Reading the result window's block at point `t` off whole-array contents `G`: entry (p, q) is `G` at (row, column). -/
theorem read_out_blk (c : Dev nD) (t : Fin cfg0.N) (G : Buf (Elt F) ((cfg0.win 3).arr.view.loc (c : Thread nD τ))) (p q : Fin 1024) :
    (((cfg0.win 3).blk t).view.read (Elt F) G : Vec F S1024x1024 .f32) (ix2 p q)
      = (G : Vec F S16384x4096 .f32) (ix2 (rowOf t p) (colOf t q)) := by
  rw [View.read_apply]
  show (G : Vec F S16384x4096 .f32) (((cfg0.win 3).blk t).view.emb (ix2 p q)) = (G : Vec F S16384x4096 .f32) (ix2 (rowOf t p) (colOf t q))
  refine congrArg (G : Vec F S16384x4096 .f32) ?_
  obtain ⟨e0, e1⟩ := idx3 t
  funext a; apply Fin.ext
  match a with
  | ⟨0, _⟩ => show win0_3.index t (0 : Fin 2) * 1024 + 1 * p.val = (t.val / 32) * 1024 + p.val; omega
  | ⟨1, _⟩ => show win0_3.index t (1 : Fin 2) * 1024 + 1 * q.val = ((t.val / 8) % 4) * 1024 + q.val; omega

/-- An entry of the result is in point `t`'s block iff each coordinate is in the block's range on its axis. -/
theorem mem_blk3 (t : Fin cfg0.N) (i : S16384x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v0).slice (win0_3.rect t)).set ↔ _
  rw [View.set_slice_whole, Rect.mem_set_unit]
  exact Iff.rfl

/-- Entry (R, C) of the result lies in the block of the point with row-block R / 1024, column-block C / 1024 and the
    last K-block, which writes its block back. -/
theorem out_cover_idx (i : S16384x4096.Idx) :
    ∃ t : Fin cfg0.N, (cfg0.win 3).flush t = true ∧ i ∈ ((cfg0.win 3).blk t).view.set := by
  have hN : cfg0.N = 512 := N_0
  have hi0 : (i 0).val < 16384 := (i 0).isLt
  have hi1 : (i 1).val < 4096 := (i 1).isLt
  obtain ⟨t, ht⟩ : ∃ t : Fin cfg0.N, t.val = ((i 0).val / 1024) * 32 + ((i 1).val / 1024) * 8 + 7 :=
    ⟨⟨((i 0).val / 1024) * 32 + ((i 1).val / 1024) * 8 + 7, by omega⟩, rfl⟩
  obtain ⟨e0, e1⟩ := idx3 t
  refine ⟨t, (flush0_3 t).mpr (by omega), ?_⟩
  rw [mem_blk3]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

/-- Every entry of the result lies in the block of some point that writes its block back. -/
theorem out_cover (c : Dev nD) (i : ((cfg0.win 3).arr.view.loc (c : Thread nD τ)).2.ty.Idx) :
    ∃ t : Fin cfg0.N, (cfg0.win 3).flush t = true ∧ i ∈ ((cfg0.win 3).blk t).view.set := by
  exact out_cover_idx i

end Cert.KernelIdeal.Hand

end
-- ==== Proof.LibSumBlocks.lean ====
import Mathlib.Algebra.BigOperators.Fin
import Mathlib.Algebra.BigOperators.Intervals
import Mathlib.Tactic.NormNum
import Mathlib.Tactic.SplitIfs

/-!
# Three readings of one array of 40,000,000 entries

Let `g : ℕ → M` take values in an additive commutative monoid.

* `sum_fin_mul`: for any `a b`, summing `g (i * b + j)` over `i < a`, `j < b` is the sum of
  `g` over `range (a * b)` (row-major enumeration of an `a × b` grid).
* `sum_rows10`: 4,000,000 rows of 10 entries sum to the sum over `range 40000000`.
* `sum_blocks`: 312,500 rows of 128 entries, cut into 40 blocks of 7,816 rows; the last block
  overhangs (`39 * 7816 = 304824`, `312500 - 304824 = 7676` rows remain, 140 overhang) and the
  overhanging rows are replaced by zero.  The masked triple sum is the sum over `range 40000000`.
* `acc_two_halves`: an accumulator over 40 points that is reset at every point `≡ 0 (mod 20)`
  and otherwise adds the point's part to what the previous point left; the values at points
  19 and 39 are the totals of the two halves, so their sum is the total of all 40 parts.
-/

namespace Cert.SumBlocks

open Finset

variable {M : Type*} [AddCommMonoid M]

/-- Row-major enumeration of an `a × b` grid. -/
theorem sum_fin_mul (a b : ℕ) (g : ℕ → M) :
    (∑ i : Fin a, ∑ j : Fin b, g (i.val * b + j.val)) = ∑ e ∈ Finset.range (a * b), g e := by
  induction a with
  | zero => simp
  | succ a ih =>
    rw [Fin.sum_univ_castSucc, Nat.succ_mul, Finset.sum_range_add, ← ih]
    congr 1
    simp only [Fin.val_last]
    exact Fin.sum_univ_eq_sum_range (fun x => g (a * b + x)) b

/-- 4,000,000 rows of 10. -/
theorem sum_rows10 (g : ℕ → M) :
    (∑ n : Fin 4000000, ∑ k : Fin 10, g (n.val * 10 + k.val))
      = ∑ e ∈ Finset.range 40000000, g e := by
  have h := sum_fin_mul 4000000 10 g
  have e : (4000000 * 10 : ℕ) = 40000000 := by norm_num
  rw [e] at h
  exact h

/-- 40 blocks of 7,816 rows of 128, rows at or beyond 312,500 masked to zero. -/
theorem sum_blocks (g : ℕ → M) :
    (∑ t : Fin 40, ∑ r : Fin 7816, ∑ l : Fin 128,
        (if t.val * 7816 + r.val < 312500 then g ((t.val * 7816 + r.val) * 128 + l.val) else 0))
      = ∑ e ∈ Finset.range 40000000, g e := by
  -- the masked row sum as a function of the global row index
  set h : ℕ → M := fun R => if R < 312500 then ∑ l : Fin 128, g (R * 128 + l.val) else 0 with hh
  have step1 : (∑ t : Fin 40, ∑ r : Fin 7816, ∑ l : Fin 128,
        (if t.val * 7816 + r.val < 312500 then g ((t.val * 7816 + r.val) * 128 + l.val) else 0))
      = ∑ t : Fin 40, ∑ r : Fin 7816, h (t.val * 7816 + r.val) := by
    refine Finset.sum_congr rfl fun t _ => Finset.sum_congr rfl fun r _ => ?_
    simp only [hh]
    split_ifs
    · rfl
    · exact Finset.sum_const_zero
  rw [step1, sum_fin_mul 40 7816 h]
  have e1 : (40 * 7816 : ℕ) = 312640 := by norm_num
  rw [e1]
  have step2 : ∑ R ∈ Finset.range 312640, h R = ∑ R ∈ Finset.range 312500, h R := by
    symm
    apply Finset.sum_subset
    · intro x hx
      rw [Finset.mem_range] at hx ⊢
      omega
    · intro x _ hx
      rw [Finset.mem_range] at hx
      simp only [hh]
      rw [if_neg hx]
  have step3 : ∑ R ∈ Finset.range 312500, h R
      = ∑ R ∈ Finset.range 312500, ∑ l : Fin 128, g (R * 128 + l.val) := by
    refine Finset.sum_congr rfl fun R hR => ?_
    rw [Finset.mem_range] at hR
    simp only [hh]
    rw [if_pos hR]
  rw [step2, step3, ← Fin.sum_univ_eq_sum_range (fun R => ∑ l : Fin 128, g (R * 128 + l.val)) 312500,
    sum_fin_mul 312500 128 g]

/-- Within a stretch of 20 points starting at a reset point `c`, the accumulator at `c + k`
is the sum of the parts at `c, …, c + k`. -/
theorem acc_prefix (part S : ℕ → M)
    (h0 : ∀ n, n % 20 = 0 → S n = part n) (h1 : ∀ n, n % 20 ≠ 0 → S n = S (n - 1) + part n)
    (c : ℕ) (hc : c % 20 = 0) :
    ∀ k, k < 20 → S (c + k) = ∑ i ∈ Finset.range (k + 1), part (c + i) := by
  intro k
  induction k with
  | zero =>
    intro _
    simp [h0 c hc]
  | succ k ih =>
    intro hk
    have hne : (c + (k + 1)) % 20 ≠ 0 := by omega
    have hpred : c + (k + 1) - 1 = c + k := by omega
    rw [h1 _ hne, hpred, ih (by omega), Finset.sum_range_succ (fun i => part (c + i)) (k + 1)]

/-- The two halves' totals add up to the total of all 40 parts. -/
theorem acc_two_halves (part S : ℕ → M)
    (h0 : ∀ n, n % 20 = 0 → S n = part n) (h1 : ∀ n, n % 20 ≠ 0 → S n = S (n - 1) + part n) :
    S 19 + S 39 = ∑ t : Fin 40, part t.val := by
  have a := acc_prefix part S h0 h1 0 (by norm_num) 19 (by norm_num)
  have b := acc_prefix part S h0 h1 20 (by norm_num) 19 (by norm_num)
  simp only [Nat.zero_add] at a
  have e39 : (20 + 19 : ℕ) = 39 := by norm_num
  have e20 : (19 + 1 : ℕ) = 20 := by norm_num
  rw [e39] at b
  rw [e20] at a b
  rw [a, b, Fin.sum_univ_eq_sum_range (fun t => part t) 40]
  have e40 : (40 : ℕ) = 20 + 20 := by norm_num
  rw [e40, Finset.sum_range_add]

end Cert.SumBlocks
-- ==== Proof.ValueI.lean ====
/-
  The result array on the extended reals.  At a point of the last K-block the stored output block's entry (p, q) is
  the residual entry plus the sum, over the eight K-blocks of the point's run, of Σ_r a(p, r) · b(q, r); read as
  array entries, that double sum is the full contraction Σ_k x(row, k) · w(col, k).  The output blocks written
  back at those points cover the result, so the result array ends as one function of the two operand arrays.
-/
import proofs.«145392_j68444598829476_1_alg».proof.Proof.PiecesI
import proofs.«145392_j68444598829476_1_alg».proof.Proof.LaunchI
import proofs.«145392_j68444598829476_1_alg».proof.Proof.Accum
import proofs.«145392_j68444598829476_1_alg».proof.Proof.BlockReadsI
import proofs.«145392_j68444598829476_1_alg».proof.Proof.LibSumBlocks
import Idealize.ShloMosaic.Lib.Pipeline.Value

set_option maxRecDepth 16384

noncomputable section

namespace Cert.KernelIdeal.Hand

open Cert.KernelIdeal Cert.KernelIdeal.Gen Cert.KernelIdeal.Inhibit
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- The result as one function of the operands: entry (r, c) is x(r, c) + Σ_k x(r, k) · w(c, k). -/
def result (x : Vec Ideal S16384x4096 .f32) (w : Vec Ideal S4096x4096 .f32) : Vec Ideal S16384x4096 .f32 :=
  fun i => x i + ∑ k : Fin 4096, x (ix2 (⟨(i 0).val, (i 0).isLt⟩ : Fin 16384) k) * w (ix2 (⟨(i 1).val, (i 1).isLt⟩ : Fin 4096) k)

/-- The three input blocks of point `n`, as vectors of their literal shapes. -/
def blkA (c : Dev nD) (n : ℕ) (h : n < cfg0.N) : Vec Ideal S1024x512 .f32 := iblk m c 0 ⟨n, h⟩
def blkB (c : Dev nD) (n : ℕ) (h : n < cfg0.N) : Vec Ideal S1024x512 .f32 := iblk m c 1 ⟨n, h⟩
def blkR (c : Dev nD) (n : ℕ) (h : n < cfg0.N) : Vec Ideal S1024x1024 .f32 := iblk m c 2 ⟨n, h⟩

/-- Point `n`'s addend to the accumulator at entry `i`: the row product of its two blocks (zero past the grid). -/
def addend (c : Dev nD) (n : ℕ) (i : S1024x1024.Idx) : EReal :=
  if h : n < cfg0.N then
    ∑ r : Fin 512, blkA m c n h (ix2 (⟨(i 0).val, (i 0).isLt⟩ : Fin 1024) r) * blkB m c n h (ix2 (⟨(i 1).val, (i 1).isLt⟩ : Fin 1024) r)
  else 0

theorem addend_ix2 (c : Dev nD) (n : ℕ) (h : n < cfg0.N) (p q : Fin 1024) :
    addend m c n (ix2 p q) = ∑ r : Fin 512, blkA m c n h (ix2 p r) * blkB m c n h (ix2 q r) := by
  unfold addend; rw [dif_pos h]

/-- The accumulator restarted at point `n`, and stepped at point `n` from `acc`. -/
def resetAt (c : Dev nD) (n : ℕ) (h : n < cfg0.N) : Vec Ideal S1024x1024 .f32 :=
  k0_pay2 (F := Ideal) (blkA m c n h) (blkB m c n h) (k0_pay1 (F := Ideal))
def stepAt (c : Dev nD) (n : ℕ) (h : n < cfg0.N) (acc : Vec Ideal S1024x1024 .f32) : Vec Ideal S1024x1024 .f32 :=
  k0_pay2 (F := Ideal) (blkA m c n h) (blkB m c n h) acc

/-- One step of the accumulator at any entry. -/
theorem step_apply (c : Dev nD) (n : ℕ) (h : n < cfg0.N) (acc : Vec Ideal S1024x1024 .f32) (i : S1024x1024.Idx) :
    stepAt m c n h acc i = acc i + addend m c n i := by
  obtain ⟨p, q, rfl⟩ : ∃ (p q : Fin 1024), i = ix2 p q := ⟨i 0, i 1, eq_ix2 i⟩
  rw [addend_ix2 m c n h]
  exact pay2_apply _ _ acc p q

theorem zero_apply (i : S1024x1024.Idx) : k0_pay1 (F := Ideal) i = (0 : EReal) := by
  obtain ⟨p, q, rfl⟩ : ∃ (p q : Fin 1024), i = ix2 p q := ⟨i 0, i 1, eq_ix2 i⟩
  exact pay1_apply p q

theorem reset_apply (c : Dev nD) (n : ℕ) (h : n < cfg0.N) (i : S1024x1024.Idx) :
    resetAt m c n h i = (fun _ => (0 : EReal)) i + addend m c n i := by
  show stepAt m c n h (k0_pay1 (F := Ideal)) i = _
  rw [step_apply, zero_apply]

/-- At a point of the first K-block the accumulator restarts from the zero block. -/
theorem accAt_reset (c : Dev nD) (n : ℕ) (h : n < cfg0.N) (h0 : n % 8 = 0) : accAt m c n h = resetAt m c n h :=
  (accAt_first m c ⟨n, h⟩ h0 (by show ¬n % 8 = 7; omega)).trans (accFirst_eq c _ _ _ _ _ _ _ _ _ _ _ _ _ _ _ _)

/-- At every other point it adds that point's block product to what the point before left. -/
theorem accAt_step (c : Dev nD) (n : ℕ) (h : n + 1 < cfg0.N) (h0 : ¬(n + 1) % 8 = 0) :
    accAt m c (n + 1) h = stepAt m c (n + 1) h (accAt m c n (Nat.lt_of_succ_lt h)) := by
  by_cases h1 : (n + 1) % 8 = 7
  · exact (accAt_last m c ⟨n + 1, h⟩ h0 h1).trans (accLast_eq c _ _ _ _ _ _ _ _ _ _ _ _ _ _ _ _ _)
  · exact (accAt_mid m c ⟨n + 1, h⟩ h0 h1).trans (accMid_eq c _ _ _ _ _ _ _ _ _ _ _ _ _ _ _ _ _)

/-- The accumulator after point `t`, at any entry: the sum of the addends of the points of `t`'s run up to `t`. -/
theorem accAt_apply (c : Dev nD) (t : ℕ) (ht : t < cfg0.N) (i : S1024x1024.Idx) :
    accAt m c t ht i = 0 + ∑ s ∈ Finset.range (t % 8 + 1), addend m c (8 * (t / 8) + s) i := by
  have h' : 8 * (t / 8) + t % 8 < cfg0.N := by rw [Nat.div_add_mod]; exact ht
  rw [Pipeline.eq_accAt_of_mod (N := cfg0.N) (fun n h => accAt m c n h) 8 (resetAt m c) (stepAt m c)
    (fun n h h0 => accAt_reset m c n h h0) (fun n h h0 => accAt_step m c n h h0) (by norm_num) t ht h']
  exact Pipeline.accAt_add_apply (N := cfg0.N) (resetAt m c) (stepAt m c) (fun _ => (0 : EReal)) (addend m c) (8 * (t / 8)) 7
    (fun h i => reset_apply m c _ h i)
    (fun n h acc i _ _ => step_apply m c n h acc i)
    (t % 8) (by omega) h' i

/-! ## The stored output block, entry by entry -/

/-- At a point of the last K-block: the residual entry plus the eight addends of the point's run. -/
theorem outAt_apply (c : Dev nD) (t : Fin cfg0.N) (h1 : t.val % 8 = 7) (p q : Fin 1024) :
    outAt m c t (ix2 p q)
      = blkR m c t.val t.isLt (ix2 p q) + (0 + ∑ s ∈ Finset.range 8, addend m c (8 * (t.val / 8) + s) (ix2 p q)) := by
  have h0 : ¬t.val % 8 = 0 := by omega
  have e : k0_pay2 (F := Ideal) (iblk m c 0 t) (iblk m c 1 t) (accAt m c (t.val - 1) (Nat.lt_of_le_of_lt (Nat.sub_le _ _) t.isLt))
      = accAt m c t.val t.isLt :=
    ((accAt_last m c t h0 h1).trans (accLast_eq c _ _ _ _ _ _ _ _ _ _ _ _ _ _ _ _ _)).symm
  rw [outAt_last m c t h0 h1, outLast_eq, e]
  show blkR m c t.val t.isLt (ix2 p q) + accAt m c t.val t.isLt (ix2 p q) = _
  rw [accAt_apply m c t.val t.isLt, h1]

/-! ## The eight block products are the full contraction -/

/-- The operands as vectors of their literal shapes. -/
def actv (c : Dev nD) : Vec Ideal S16384x4096 .f32 := m ((c : Thread nD τ).loc main_arg0)
def inhw (c : Dev nD) : Vec Ideal S4096x4096 .f32 := m ((c : Thread nD τ).loc main_arg1)

/-- The summand of the contraction for row-block entry `p` and column-block entry `q` of point `t`, as a function of
    the contraction index (zero past its range). -/
def term (c : Dev nD) (t : Fin cfg0.N) (p q : Fin 1024) (e : ℕ) : EReal :=
  if h : e < 4096 then actv m c (ix2 (rowOf t p) ⟨e, h⟩) * inhw m c (ix2 (colOf t q) ⟨e, h⟩) else 0

/-- The addend of the `s`-th point of `t`'s run: the contraction's terms with indices in the `s`-th K-block. -/
theorem addend_terms (c : Dev nD) (t : Fin cfg0.N) (s : ℕ) (hs : s < 8) (p q : Fin 1024) :
    addend m c (8 * (t.val / 8) + s) (ix2 p q) = ∑ r : Fin 512, term m c t p q (s * 512 + r.val) := by
  have hN : cfg0.N = 512 := N_0
  have ht := t.isLt
  have hn : 8 * (t.val / 8) + s < cfg0.N := by omega
  rw [addend_ix2 m c _ hn]
  refine Finset.sum_congr rfl fun r _ => ?_
  have hr := r.isLt
  unfold blkA blkB term
  rw [iblk0_apply, iblk1_apply, dif_pos (by omega : s * 512 + r.val < 4096)]
  have e1 : rowOf (⟨8 * (t.val / 8) + s, hn⟩ : Fin cfg0.N) p = rowOf t p :=
    Fin.ext (by show (8 * (t.val / 8) + s) / 32 * 1024 + p.val = t.val / 32 * 1024 + p.val; omega)
  have e2 : colOf (⟨8 * (t.val / 8) + s, hn⟩ : Fin cfg0.N) q = colOf t q :=
    Fin.ext (by show (8 * (t.val / 8) + s) / 8 % 4 * 1024 + q.val = t.val / 8 % 4 * 1024 + q.val; omega)
  have e3 : kOf (⟨8 * (t.val / 8) + s, hn⟩ : Fin cfg0.N) r = (⟨s * 512 + r.val, by omega⟩ : Fin 4096) :=
    Fin.ext (by show (8 * (t.val / 8) + s) % 8 * 512 + r.val = s * 512 + r.val; omega)
  rw [e1, e2, e3]
  rfl

/-- Summed over the run, the addends are the contraction over all 4096 indices. -/
theorem contraction (c : Dev nD) (t : Fin cfg0.N) (p q : Fin 1024) :
    ∑ s ∈ Finset.range 8, addend m c (8 * (t.val / 8) + s) (ix2 p q)
      = ∑ k : Fin 4096, actv m c (ix2 (rowOf t p) k) * inhw m c (ix2 (colOf t q) k) := by
  rw [Finset.sum_congr rfl fun s hs => addend_terms m c t s (Finset.mem_range.mp hs) p q,
    ← Fin.sum_univ_eq_sum_range (fun s => ∑ r : Fin 512, term m c t p q (s * 512 + r.val)) 8,
    Cert.SumBlocks.sum_fin_mul 8 512 (term m c t p q), show 8 * 512 = 4096 from rfl,
    ← Fin.sum_univ_eq_sum_range (term m c t p q) 4096]
  refine Finset.sum_congr rfl fun k _ => ?_
  unfold term; rw [dif_pos k.isLt]

/-! ## The result array -/

/-- The result array as one function of the operands' launch contents. -/
def G (c : Dev nD) : Buf (Elt Ideal) ((cfg0.win 3).arr.view.loc (c : Thread nD τ)) := result (actv m c) (inhw m c)

/-- What a point of the last K-block writes back is its block of `G`. -/
theorem flushed_eq (c : Dev nD) (t : Fin cfg0.N) (hf : (cfg0.win 3).flush t = true) :
    (dats m 0 c).flushed 3 t = ((cfg0.win 3).blk t).view.read (Elt Ideal) (G m c) := by
  have h1 : t.val % 8 = 7 := (flush0_3 t).mp hf
  refine funext fun (y : S1024x1024.Idx) => ?_
  obtain ⟨p, q, rfl⟩ : ∃ (p q : Fin 1024), y = ix2 p q := ⟨y 0, y 1, eq_ix2 y⟩
  refine Eq.trans ?_ (read_out_blk c t (G m c) p q).symm
  show (cfg0.win 3).cut (grid0.coords t) ((dats m 0 c).after 3 t) (ix2 p q) = _
  rw [after_3]
  show outAt m c t (ix2 p q) = result (actv m c) (inhw m c) (ix2 (rowOf t p) (colOf t q))
  rw [outAt_apply m c t h1 p q, contraction, zero_add]
  unfold blkR
  rw [iblk2_apply]
  rfl

/-- The output blocks written back at the points of the last K-block cover the result: it ends at `G`. -/
theorem final (c : Dev nD) : (dats m 0 c).arrAt 3 cfg0.N = G m c :=
  (dats m 0 c).arrAt_eq_of_cover 3 (G m c) (fun t hf => flushed_eq m c t hf) (out_cover c)

/-- The kernel's run at the ideal instance: the result array ends at `G`, the operands unchanged. -/
theorem run_value (ρ : Dev nD → PrngReg) :
    θ_run defs (onTc (τ := τ) (main (F := Ideal))) ⟨m, fun _ => 0, ρ⟩ (fun r => ∀ c : Dev nD,
      r.2.mem ((c.tc : Thread nD τ).loc main_v0) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c 3).trans (final m c),
     (h c 0).trans (((dats m 0 c).arrAt_in 0 rfl _).trans (A_eq m c 0)),
     (h c 1).trans (((dats m 0 c).arrAt_in 1 rfl _).trans (A_eq m c 1))⟩) (run_main m ρ)

end Cert.KernelIdeal.Hand

end
-- ==== Proof.RefSpec.lean ====
/-
  The specification: entry (r, c) of the result is x(r, c) + Σ_k x(r, k) · w(c, k) — the activations plus their
  product with the transposed inhibition matrix — and the reference computes exactly this, index by index, on the
  extended reals.
-/
import proofs.«145392_j68444598829476_1_alg».proof.Proof.Gen.ReferenceIdeal.Read
import Idealize.ShloMosaic.Lib.ValueIdx
import Idealize.ShloMosaic.PureOps.Ideal.Laws

noncomputable section

namespace Cert.ReferenceIdeal.Inhibit

open Cert.ReferenceIdeal Cert.ReferenceIdeal.Gen Idealize.ShloMosaic Idealize.ShloMosaic.ValueIdx

/-- Entry (r, c): the activation there plus the sum over k of activation (r, k) times inhibition weight (c, k). -/
def spec (x : (⟨S16384x4096, .f32⟩ : BufTy).Contents (Elt Ideal)) (w : (⟨S4096x4096, .f32⟩ : BufTy).Contents (Elt Ideal)) :
    (⟨S16384x4096, .f32⟩ : BufTy).Contents (Elt Ideal) :=
  fun i => x i + ∑ k : Fin 4096, x (ix2 (⟨(i 0).val, (i 0).isLt⟩ : Fin 16384) k) * w (ix2 (⟨(i 1).val, (i 1).isLt⟩ : Fin 4096) k)

/-- The reference's last stage is the specification. -/
theorem ref_eq_spec (x : (⟨S16384x4096, .f32⟩ : BufTy).Contents (Elt Ideal)) (w : (⟨S4096x4096, .f32⟩ : BufTy).Contents (Elt Ideal)) :
    Cert.ReferenceIdeal.Read.val_main_v2 (F := Ideal) x w = spec x w := by
  funext i
  rw [Read.val_main_v2_apply, Read.val_main_v1_apply]
  show x i + _ = x i + _
  refine congrArg (x i + ·) ?_
  refine Finset.sum_congr rfl fun k _ => ?_
  rw [Read.val_main_v0_apply]
  have el : Read.lidx_main_v1 i k = ix2 (⟨(i 0).val, (i 0).isLt⟩ : Fin 16384) k :=
    funext fun a => Fin.ext (by match a with | ⟨0, _⟩ => rfl | ⟨1, _⟩ => rfl)
  have er : Read.idx_main_v0 (Read.ridx_main_v1 i k) = ix2 (⟨(i 1).val, (i 1).isLt⟩ : Fin 4096) k :=
    funext fun a => Fin.ext (by match a with | ⟨0, _⟩ => rfl | ⟨1, _⟩ => rfl)
  rw [el, er]

end Cert.ReferenceIdeal.Inhibit

end
-- ==== Proof.lean ====
/-
  Lateral inhibition as a dense product: out = x + x · wᵀ over f32[16384, 4096] and f32[4096, 4096].

  The kernel tiles the product over a 16 × 4 × 8 grid: at the first K-block of each output tile a scratch
  accumulator is zeroed, at every K-block the product of a 1024 × 512 block of x with the transpose of a 1024 × 512
  block of w is added to it, and at the last K-block residual + accumulator is stored into the output tile, which
  is then written back.  The reference is x + x · (transpose w).  On the extended reals both are, entry by entry,
  x(r, c) + Σ_k x(r, k) · w(c, k): the kernel's eight partial sums regroup the one sum over k, which needs only that
  addition is associative with zero as its unit, so the precondition is never opened.

  The activations are read through two windows (the left factor and the residual), so the launch deals their buffer
  in two half shares; the three frames follow from the run of the region, the ledger of the idealization is empty.
-/
import proofs.«145392_j68444598829476_1_alg».proof.Defs
import proofs.«145392_j68444598829476_1_alg».proof.Proof.Gen.Kernel
import proofs.«145392_j68444598829476_1_alg».proof.Proof.Gen.KernelIdeal
import proofs.«145392_j68444598829476_1_alg».proof.Proof.Gen.ReferenceIdeal
import proofs.«145392_j68444598829476_1_alg».proof.Proof.Gen.ReferenceIdeal.Run
import proofs.«145392_j68444598829476_1_alg».proof.Proof.Gen.ReferenceIdeal.Read
import proofs.«145392_j68444598829476_1_alg».proof.Proof.Gen.Pre_finite_inputs
import proofs.«145392_j68444598829476_1_alg».proof.Proof.LaunchB
import proofs.«145392_j68444598829476_1_alg».proof.Proof.ValueI
import proofs.«145392_j68444598829476_1_alg».proof.Proof.RefSpec

noncomputable section

namespace Cert.Proof

open Idealize.ShloMosaic Idealize.SL.Sem

/-- The word-level kernel runs to the end and leaves its operands as they were. -/
theorem frame_k : Cert.frame_Kernel := fun m ρ _ => Cert.Kernel.Hand.frame m ρ

/-- So does the idealized kernel. -/
theorem frame_ki : Cert.frame_KernelIdeal := fun m ρ _ => Cert.KernelIdeal.Hand.frame m ρ

/-- The reference is three host operations; its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- The specification read over the kernel's shapes is the specification read over the reference's. -/
theorem result_eq_spec (x : Vec Ideal Cert.KernelIdeal.S16384x4096 .f32) (w : Vec Ideal Cert.KernelIdeal.S4096x4096 .f32) :
    Cert.KernelIdeal.Hand.result x w = Cert.ReferenceIdeal.Inhibit.spec x w := rfl

/-- From memories agreeing on the operands both programs end with the result array at
    x(r, c) + Σ_k x(r, k) · w(c, k). -/
theorem algebraic : Cert.algebraic_KernelIdeal_ReferenceIdeal := by
  intro m ρ m' ρ' _ hagree
  refine ⟨fun c => Cert.KernelIdeal.Hand.G m c, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.Inhibit.ref_eq_spec, (hagree c).1, (hagree c).2]
  exact (result_eq_spec _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
